-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x512 : Shape := ⟨3, ![16, 900, 512]⟩
abbrev S16x900x4 : Shape := ⟨3, ![16, 900, 4]⟩
abbrev S16x91x512 : Shape := ⟨3, ![16, 91, 512]⟩
abbrev S16x40x4 : Shape := ⟨3, ![16, 40, 4]⟩
abbrev S16x40 : Shape := ⟨2, ![16, 40]⟩
abbrev S_ : Shape := ⟨0, ![]⟩

class Facts : Prop where
  bcast_S_S16x900x512 : S_.BroadcastsInDim S16x900x512 (![] : Fin 0 → Fin S16x900x512.rank)
  reducesTo_S16x900x512_S_d0_1_2 : S16x900x512.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S16x91x512 : S_.BroadcastsInDim S16x91x512 (![] : Fin 0 → Fin S16x91x512.rank)
  reducesTo_S16x91x512_S_d0_1_2 : S16x91x512.ReducesTo [0, 1, 2] S_
  bcast_S_S16x40x4 : S_.BroadcastsInDim S16x40x4 (![] : Fin 0 → Fin S16x40x4.rank)
  reducesTo_S16x40x4_S_d0_1_2 : S16x40x4.ReducesTo [0, 1, 2] S_

variable [Facts]

def fn_part1 {F : FTy → Type} [FloatOps F] (main_v13 : IVec S_ 1) (main_v16 : IVec S16x40x4 1) : IVec S_ 1 :=
  let main_c_5 : IVec S_ 1 := constantI S_ 1 1#1
  let main_v17 : IVec S_ 1 := (fun x v => Host.reduce IntOp.andi x v reducesTo_S16x40x4_S_d0_1_2 h_S_) main_v16 main_c_5
  let main_v18 : IVec S_ 1 := andi main_v13 main_v17
  main_v18

def fn {F : FTy → Type} [FloatOps F] (main_arg0 : FVec F S16x900x512 .f32) (main_arg1 : FVec F S16x900x4 .f32) (main_arg2 : FVec F S16x91x512 .f32) (main_arg3 : FVec F S16x40x4 .f32) (main_arg4 : IVec S16x40 32) : IVec S_ 1 :=
  let main_v0 : FVec F S16x900x512 .f32 := Host.absf main_arg0
  let main_cst : FVec F S_ .f32 := constant S_ .f32 0x7F800000#32
  let main_v1 : FVec F S16x900x512 .f32 := broadcastInDim S16x900x512 ![] bcast_S_S16x900x512 main_cst
  let main_v2 : IVec S16x900x512 1 := cmpf .olt main_v0 main_v1
  let main_c : IVec S_ 1 := constantI S_ 1 1#1
  let main_v3 : IVec S_ 1 := (fun x v => Host.reduce IntOp.andi x v reducesTo_S16x900x512_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S16x91x512 .f32 := Host.absf main_arg2
  let main_cst_2 : FVec F S_ .f32 := constant S_ .f32 0x7F800000#32
  let main_v10 : FVec F S16x91x512 .f32 := broadcastInDim S16x91x512 ![] bcast_S_S16x91x512 main_cst_2
  let main_v11 : IVec S16x91x512 1 := cmpf .olt main_v9 main_v10
  let main_c_3 : IVec S_ 1 := constantI S_ 1 1#1
  let main_v12 : IVec S_ 1 := (fun x v => Host.reduce IntOp.andi x v reducesTo_S16x91x512_S_d0_1_2 h_S_) main_v11 main_c_3
  let main_v13 : IVec S_ 1 := andi main_v8 main_v12
  let main_v14 : FVec F S16x40x4 .f32 := Host.absf main_arg3
  let main_cst_4 : FVec F S_ .f32 := constant S_ .f32 0x7F800000#32
  let main_v15 : FVec F S16x40x4 .f32 := broadcastInDim S16x40x4 ![] bcast_S_S16x40x4 main_cst_4
  let main_v16 : IVec S16x40x4 1 := cmpf .olt main_v14 main_v15
  fn_part1 (F := F) main_v13 main_v16
-- ==== Kernel.lean ====
abbrev S16x900x512 : Shape := ⟨3, ![16, 900, 512]⟩
abbrev S16x900x4 : Shape := ⟨3, ![16, 900, 4]⟩
abbrev S16x91x512 : Shape := ⟨3, ![16, 91, 512]⟩
abbrev S16x40x4 : Shape := ⟨3, ![16, 40, 4]⟩
abbrev S16x40 : Shape := ⟨2, ![16, 40]⟩
abbrev S_ : Shape := ⟨0, ![]⟩
abbrev S16x40x1 : Shape := ⟨3, ![16, 40, 1]⟩
abbrev S16x40x512 : Shape := ⟨3, ![16, 40, 512]⟩
abbrev S640x512 : Shape := ⟨2, ![640, 512]⟩
abbrev S640 : Shape := ⟨1, ![640]⟩
abbrev S640x1 : Shape := ⟨2, ![640, 1]⟩
abbrev S512x640 : Shape := ⟨2, ![512, 640]⟩
abbrev S640x4 : Shape := ⟨2, ![640, 4]⟩
abbrev S1x640 : Shape := ⟨2, ![1, 640]⟩
abbrev S16x640 : Shape := ⟨2, ![16, 640]⟩
abbrev S14400x512 : Shape := ⟨2, ![14400, 512]⟩
abbrev S14400x4 : Shape := ⟨2, ![14400, 4]⟩
abbrev S14400x640 : Shape := ⟨2, ![14400, 640]⟩
abbrev S1440x512 : Shape := ⟨2, ![1440, 512]⟩
abbrev S1440x4 : Shape := ⟨2, ![1440, 4]⟩
abbrev S1440x640 : Shape := ⟨2, ![1440, 640]⟩
abbrev S1440x1 : Shape := ⟨2, ![1440, 1]⟩
abbrev S16x900x640 : Shape := ⟨3, ![16, 900, 640]⟩

abbrev nBuf : Space → Nat
  | .hbm => 71
  | .vmem => 8
  | .smem => 0
  | _ => 0

abbrev bufTy : (tb : Table) → Fin (tcTables nBuf tb) → BufTy
  | .hbm, ⟨0, _⟩ => ⟨S16x900x512, .f32⟩
  | .hbm, ⟨1, _⟩ => ⟨S16x900x4, .f32⟩
  | .hbm, ⟨2, _⟩ => ⟨S16x91x512, .f32⟩
  | .hbm, ⟨3, _⟩ => ⟨S16x40x4, .f32⟩
  | .hbm, ⟨4, _⟩ => ⟨S16x40, .i32⟩
  | .hbm, ⟨5, _⟩ => ⟨S_, .i32⟩
  | .hbm, ⟨6, _⟩ => ⟨S16x40, .i32⟩
  | .hbm, ⟨7, _⟩ => ⟨S16x40, .i1⟩
  | .hbm, ⟨8, _⟩ => ⟨S_, .i32⟩
  | .hbm, ⟨9, _⟩ => ⟨S16x40, .i32⟩
  | .hbm, ⟨10, _⟩ => ⟨S16x40, .i32⟩
  | .hbm, ⟨11, _⟩ => ⟨S16x40, .i32⟩
  | .hbm, ⟨12, _⟩ => ⟨S16x40x1, .i32⟩
  | .hbm, ⟨13, _⟩ => ⟨S16x40x512, .f32⟩
  | .hbm, ⟨14, _⟩ => ⟨S640x512, .f32⟩
  | .hbm, ⟨15, _⟩ => ⟨S_, .f32⟩
  | .hbm, ⟨16, _⟩ => ⟨S640, .f32⟩
  | .hbm, ⟨17, _⟩ => ⟨S640x1, .f32⟩
  | .hbm, ⟨18, _⟩ => ⟨S640x512, .f32⟩
  | .hbm, ⟨19, _⟩ => ⟨S640x512, .f32⟩
  | .hbm, ⟨20, _⟩ => ⟨S512x640, .f32⟩
  | .hbm, ⟨21, _⟩ => ⟨S512x640, .bf16⟩
  | .hbm, ⟨22, _⟩ => ⟨S640x4, .f32⟩
  | .hbm, ⟨23, _⟩ => ⟨S640x1, .f32⟩
  | .hbm, ⟨24, _⟩ => ⟨S640, .f32⟩
  | .hbm, ⟨25, _⟩ => ⟨S640x1, .f32⟩
  | .hbm, ⟨26, _⟩ => ⟨S640, .f32⟩
  | .hbm, ⟨27, _⟩ => ⟨S640x1, .f32⟩
  | .hbm, ⟨28, _⟩ => ⟨S640, .f32⟩
  | .hbm, ⟨29, _⟩ => ⟨S640x1, .f32⟩
  | .hbm, ⟨30, _⟩ => ⟨S640, .f32⟩
  | .hbm, ⟨31, _⟩ => ⟨S_, .f32⟩
  | .hbm, ⟨32, _⟩ => ⟨S640, .f32⟩
  | .hbm, ⟨33, _⟩ => ⟨S640, .f32⟩
  | .hbm, ⟨34, _⟩ => ⟨S640, .f32⟩
  | .hbm, ⟨35, _⟩ => ⟨S_, .f32⟩
  | .hbm, ⟨36, _⟩ => ⟨S640, .f32⟩
  | .hbm, ⟨37, _⟩ => ⟨S640, .f32⟩
  | .hbm, ⟨38, _⟩ => ⟨S640, .f32⟩
  | .hbm, ⟨39, _⟩ => ⟨S_, .f32⟩
  | .hbm, ⟨40, _⟩ => ⟨S640, .f32⟩
  | .hbm, ⟨41, _⟩ => ⟨S640, .f32⟩
  | .hbm, ⟨42, _⟩ => ⟨S640, .f32⟩
  | .hbm, ⟨43, _⟩ => ⟨S_, .f32⟩
  | .hbm, ⟨44, _⟩ => ⟨S640, .f32⟩
  | .hbm, ⟨45, _⟩ => ⟨S640, .f32⟩
  | .hbm, ⟨46, _⟩ => ⟨S640, .f32⟩
  | .hbm, ⟨47, _⟩ => ⟨S640, .f32⟩
  | .hbm, ⟨48, _⟩ => ⟨S_, .f32⟩
  | .hbm, ⟨49, _⟩ => ⟨S640, .f32⟩
  | .hbm, ⟨50, _⟩ => ⟨S1x640, .f32⟩
  | .hbm, ⟨51, _⟩ => ⟨S1x640, .f32⟩
  | .hbm, ⟨52, _⟩ => ⟨S1x640, .f32⟩
  | .hbm, ⟨53, _⟩ => ⟨S1x640, .f32⟩
  | .hbm, ⟨54, _⟩ => ⟨S1x640, .f32⟩
  | .hbm, ⟨55, _⟩ => ⟨S1x640, .f32⟩
  | .hbm, ⟨56, _⟩ => ⟨S1x640, .f32⟩
  | .hbm, ⟨57, _⟩ => ⟨S1x640, .f32⟩
  | .hbm, ⟨58, _⟩ => ⟨S1x640, .f32⟩
  | .hbm, ⟨59, _⟩ => ⟨S1x640, .f32⟩
  | .hbm, ⟨60, _⟩ => ⟨S1x640, .f32⟩
  | .hbm, ⟨61, _⟩ => ⟨S1x640, .f32⟩
  | .hbm, ⟨62, _⟩ => ⟨S1x640, .f32⟩
  | .hbm, ⟨63, _⟩ => ⟨S1x640, .f32⟩
  | .hbm, ⟨64, _⟩ => ⟨S1x640, .f32⟩
  | .hbm, ⟨65, _⟩ => ⟨S1x640, .f32⟩
  | .hbm, ⟨66, _⟩ => ⟨S16x640, .f32⟩
  | .hbm, ⟨67, _⟩ => ⟨S14400x512, .f32⟩
  | .hbm, ⟨68, _⟩ => ⟨S14400x4, .f32⟩
  | .hbm, ⟨69, _⟩ => ⟨S14400x640, .f32⟩
  | .hbm, ⟨70, _⟩ => ⟨S16x900x640, .f32⟩
  | .local _ .vmem, ⟨0, _⟩ => ⟨S1440x512, .f32⟩
  | .local _ .vmem, ⟨1, _⟩ => ⟨S1440x512, .f32⟩
  | .local _ .vmem, ⟨2, _⟩ => ⟨S1440x4, .f32⟩
  | .local _ .vmem, ⟨3, _⟩ => ⟨S1440x4, .f32⟩
  | .local _ .vmem, ⟨4, _⟩ => ⟨S512x640, .bf16⟩
  | .local _ .vmem, ⟨5, _⟩ => ⟨S16x640, .f32⟩
  | .local _ .vmem, ⟨6, _⟩ => ⟨S1440x640, .f32⟩
  | .local _ .vmem, ⟨7, _⟩ => ⟨S1440x640, .f32⟩
  | _, _ => ⟨S16x900x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1440x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1440x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1440x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x40 : S_.BroadcastsInDim S16x40 (![] : Fin 0 → Fin S16x40.rank)
  bcast_S16x40_S16x40x1_0_1 : S16x40.BroadcastsInDim S16x40x1 (![0, 1] : Fin 2 → Fin S16x40x1.rank)
  shapeCasts_S16x40x512_S640x512 : S16x40x512.ShapeCasts S640x512
  reducesTo_S640x512_S640_d1 : S640x512.ReducesTo [1] S640
  h_S_ : 0 < S_.numel
  bcast_S640_S640x1_0 : S640.BroadcastsInDim S640x1 (![0] : Fin 1 → Fin S640x1.rank)
  bcast_S640x1_S640x512_0_1 : S640x1.BroadcastsInDim S640x512 (![0, 1] : Fin 2 → Fin S640x512.rank)
  transposes_S640x512_S512x640_1_0 : S640x512.Transposes [1, 0] S512x640
  bitsLt_bf16_f32 : FTy.bits .bf16 < FTy.bits .f32
  shapeCasts_S16x40x4_S640x4 : S16x40x4.ShapeCasts S640x4
  slices_S640x4_S640x1_0_0 : S640x4.Slices ![0, 0] S640x1
  shapeCasts_S640x1_S640 : S640x1.ShapeCasts S640
  slices_S640x4_S640x1_0_1 : S640x4.Slices ![0, 1] S640x1
  slices_S640x4_S640x1_0_2 : S640x4.Slices ![0, 2] S640x1
  slices_S640x4_S640x1_0_3 : S640x4.Slices ![0, 3] S640x1
  bcast_S_S640 : S_.BroadcastsInDim S640 (![] : Fin 0 → Fin S640.rank)
  bcast_S640_S1x640_1 : S640.BroadcastsInDim S1x640 (![1] : Fin 1 → Fin S1x640.rank)
  concatenates_S1x640_S1x640_S1x640_S1x640_S1x640_S1x640_S1x640_S1x640_S1x640_S1x640_S1x640_S1x640_S1x640_S1x640_S1x640_S1x640_S16x640_d0 : Shape.Concatenates [S1x640, S1x640, S1x640, S1x640, S1x640, S1x640, S1x640, S1x640, S1x640, S1x640, S1x640, S1x640, S1x640, S1x640, S1x640, S1x640] S16x640 0
  shapeCasts_S16x900x512_S14400x512 : S16x900x512.ShapeCasts S14400x512
  shapeCasts_S16x900x4_S14400x4 : S16x900x4.ShapeCasts S14400x4
  inb_S1440x512_S1440x512_0_0 : ∀ a, (![0, 0] : Fin 2 → Nat) a + S1440x512.size a ≤ S1440x512.size a
  h_S1440x512 : 0 < S1440x512.numel
  shapeCasts_S1440x512_S1440x512 : S1440x512.ShapeCasts S1440x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1440x4_S1440x1_0_0 : ∀ a, (![0, 0] : Fin 2 → Nat) a + S1440x1.size a ≤ S1440x4.size a
  h_S1440x1 : 0 < S1440x1.numel
  shapeCasts_S1440x1_S1440x1 : S1440x1.ShapeCasts S1440x1
  inb_S1440x4_S1440x1_0_1 : ∀ a, (![0, 1] : Fin 2 → Nat) a + S1440x1.size a ≤ S1440x4.size a
  inb_S1440x4_S1440x1_0_2 : ∀ a, (![0, 2] : Fin 2 → Nat) a + S1440x1.size a ≤ S1440x4.size a
  inb_S1440x4_S1440x1_0_3 : ∀ a, (![0, 3] : Fin 2 → Nat) a + S1440x1.size a ≤ S1440x4.size a
  inb_S16x640_S1x640_0_0 : ∀ a, (![0, 0] : Fin 2 → Nat) a + S1x640.size a ≤ S16x640.size a
  h_S1x640 : 0 < S1x640.numel
  shapeCasts_S1x640_S1x640 : S1x640.ShapeCasts S1x640
  inb_S16x640_S1x640_1_0 : ∀ a, (![1, 0] : Fin 2 → Nat) a + S1x640.size a ≤ S16x640.size a
  inb_S16x640_S1x640_2_0 : ∀ a, (![2, 0] : Fin 2 → Nat) a + S1x640.size a ≤ S16x640.size a
  inb_S16x640_S1x640_3_0 : ∀ a, (![3, 0] : Fin 2 → Nat) a + S1x640.size a ≤ S16x640.size a
  inb_S16x640_S1x640_4_0 : ∀ a, (![4, 0] : Fin 2 → Nat) a + S1x640.size a ≤ S16x640.size a
  inb_S16x640_S1x640_5_0 : ∀ a, (![5, 0] : Fin 2 → Nat) a + S1x640.size a ≤ S16x640.size a
  inb_S16x640_S1x640_6_0 : ∀ a, (![6, 0] : Fin 2 → Nat) a + S1x640.size a ≤ S16x640.size a
  inb_S16x640_S1x640_7_0 : ∀ a, (![7, 0] : Fin 2 → Nat) a + S1x640.size a ≤ S16x640.size a
  inb_S16x640_S1x640_8_0 : ∀ a, (![8, 0] : Fin 2 → Nat) a + S1x640.size a ≤ S16x640.size a
  broadcasts_S1440x1_S1440x640 : S1440x1.Broadcasts S1440x640
  broadcasts_S1x640_S1440x640 : S1x640.Broadcasts S1440x640
  inb_S1440x640_S1440x640_0_0 : ∀ a, (![0, 0] : Fin 2 → Nat) a + S1440x640.size a ≤ S1440x640.size a
  h_S1440x640 : 0 < S1440x640.numel
  shapeCasts_S14400x640_S16x900x640 : S14400x640.ShapeCasts S16x900x640
  gather_S16x91x512_S16x40x1_S16x40x512_2_1_0_0_1_2_11512_wf : GatherDims.WF S16x91x512 S16x40x1 S16x40x512 [2] [1] [0] [1] [0] 2 ![1, 1, 512]
  dot_S1440x512_S512x640_S1440x640_1_0_0_1_n_n_wf : DotDims.WF S1440x512 S512x640 S1440x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1440x512.size a ≤ S14400x512.size a
  hwx0_0 : ∀ i : grid0.Coords, EltTy.bits .f32 = 32 ∨ (Rect.block (s := S14400x512) S1440x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1440x4.size a ≤ S14400x4.size a
  hwx0_1 : ∀ i : grid0.Coords, EltTy.bits .f32 = 32 ∨ (Rect.block (s := S14400x4) S1440x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x640.size a ≤ S16x640.size a
  hwx0_3 : ∀ i : grid0.Coords, EltTy.bits .f32 = 32 ∨ (Rect.block (s := S16x640) S16x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1440x640.size a ≤ S14400x640.size a
  hwx0_4 : ∀ i : grid0.Coords, EltTy.bits .f32 = 32 ∨ (Rect.block (s := S14400x640) S1440x640.size (cc0_transform_4 i) (hinb0_4 i)).WholeWords (EltTy.packing .f32)

variable [Facts₀]

def gather_S16x91x512_S16x40x1_S16x40x512_2_1_0_0_1_2_11512 : GatherDims S16x91x512 S16x40x1 S16x40x512 where
  offsetDims := [2]
  collapsedSliceDims := [1]
  operandBatchingDims := [0]
  startIndicesBatchingDims := [0]
  startIndexMap := [1]
  indexVectorDim := 2
  sliceSizes := ![1, 1, 512]
  wf := gather_S16x91x512_S16x40x1_S16x40x512_2_1_0_0_1_2_11512_wf
def dot_S1440x512_S512x640_S1440x640_1_0_0_1_n_n : DotDims S1440x512 S512x640 S1440x640 where
  lhsContracting := [1]
  rhsContracting := [0]
  lhsNonContracting := [0]
  rhsNonContracting := [1]
  lhsBatch := []
  rhsBatch := []
  wf := dot_S1440x512_S512x640_S1440x640_1_0_0_1_n_n_wf

abbrev win0_0 : Pipeline.Window sig grid0 :=
  Pipeline.Window.ofSpec (Memref.whole main_v54) S1440x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S1440x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S16x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1440x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x512 : Shape := ⟨3, ![16, 900, 512]⟩
abbrev S16x900x4 : Shape := ⟨3, ![16, 900, 4]⟩
abbrev S16x91x512 : Shape := ⟨3, ![16, 91, 512]⟩
abbrev S16x40x4 : Shape := ⟨3, ![16, 40, 4]⟩
abbrev S16x40 : Shape := ⟨2, ![16, 40]⟩
abbrev S14400x512 : Shape := ⟨2, ![14400, 512]⟩
abbrev S_ : Shape := ⟨0, ![]⟩
abbrev S14400x4 : Shape := ⟨2, ![14400, 4]⟩
abbrev S16x40x1 : Shape := ⟨3, ![16, 40, 1]⟩
abbrev S16x40x512 : Shape := ⟨3, ![16, 40, 512]⟩
abbrev S640x512 : Shape := ⟨2, ![640, 512]⟩
abbrev S640 : Shape := ⟨1, ![640]⟩
abbrev S640x1 : Shape := ⟨2, ![640, 1]⟩
abbrev S640x4 : Shape := ⟨2, ![640, 4]⟩
abbrev S512x640 : Shape := ⟨2, ![512, 640]⟩
abbrev S14400x640 : Shape := ⟨2, ![14400, 640]⟩
abbrev S14400x1x4 : Shape := ⟨3, ![14400, 1, 4]⟩
abbrev S1x640x4 : Shape := ⟨3, ![1, 640, 4]⟩
abbrev S14400x640x4 : Shape := ⟨3, ![14400, 640, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S640x2 : Shape := ⟨2, ![640, 2]⟩
abbrev S1x640x2 : Shape := ⟨3, ![1, 640, 2]⟩
abbrev S14400x640x2 : Shape := ⟨3, ![14400, 640, 2]⟩
abbrev S14400x640x1 : Shape := ⟨3, ![14400, 640, 1]⟩
abbrev S1x640 : Shape := ⟨2, ![1, 640]⟩
abbrev S16x900x640 : Shape := ⟨3, ![16, 900, 640]⟩

abbrev nBuf : Space → Nat
  | .hbm => 223
  | .vmem => 0
  | .smem => 0
  | _ => 0

abbrev hbmTy0_0 (i : Nat) : BufTy := match i % 128 with
  | 0 => ⟨S16x900x512, .f32⟩
  | 1 => ⟨S16x900x4, .f32⟩
  | 2 => ⟨S16x91x512, .f32⟩
  | 3 => ⟨S16x40x4, .f32⟩
  | 4 => ⟨S16x40, .i32⟩
  | 5 => ⟨S14400x512, .f32⟩
  | 6 => ⟨S14400x512, .f32⟩
  | 7 => ⟨S14400x512, .f32⟩
  | 8 => ⟨S_, .f32⟩
  | 9 => ⟨S14400x512, .f32⟩
  | 10 => ⟨S14400x512, .f32⟩
  | 11 => ⟨S_, .f32⟩
  | 12 => ⟨S14400x512, .f32⟩
  | 13 => ⟨S14400x512, .f32⟩
  | 14 => ⟨S14400x4, .f32⟩
  | 15 => ⟨S_, .i32⟩
  | 16 => ⟨S16x40, .i32⟩
  | 17 => ⟨S16x40, .i1⟩
  | 18 => ⟨S_, .i32⟩
  | 19 => ⟨S16x40, .i32⟩
  | 20 => ⟨S16x40, .i32⟩
  | 21 => ⟨S16x40, .i32⟩
  | 22 => ⟨S16x40x1, .i32⟩
  | 23 => ⟨S16x40x512, .f32⟩
  | 24 => ⟨S640x512, .f32⟩
  | 25 => ⟨S_, .f32⟩
  | 26 => ⟨S640, .f32⟩
  | 27 => ⟨S640x1, .f32⟩
  | 28 => ⟨S640x512, .f32⟩
  | 29 => ⟨S640x512, .f32⟩
  | 30 => ⟨S640x4, .f32⟩
  | 31 => ⟨S_, .f32⟩
  | 32 => ⟨S14400x512, .f32⟩
  | 33 => ⟨S14400x512, .f32⟩
  | 34 => ⟨S_, .f32⟩
  | 35 => ⟨S14400x512, .f32⟩
  | 36 => ⟨S14400x512, .f32⟩
  | 37 => ⟨S_, .f32⟩
  | 38 => ⟨S14400x512, .f32⟩
  | 39 => ⟨S14400x512, .f32⟩
  | 40 => ⟨S_, .f32⟩
  | 41 => ⟨S14400x512, .f32⟩
  | 42 => ⟨S14400x512, .f32⟩
  | 43 => ⟨S14400x512, .f32⟩
  | 44 => ⟨S14400x512, .f32⟩
  | 45 => ⟨S14400x512, .f32⟩
  | 46 => ⟨S_, .f32⟩
  | 47 => ⟨S14400x512, .f32⟩
  | 48 => ⟨S14400x512, .f32⟩
  | 49 => ⟨S_, .f32⟩
  | 50 => ⟨S14400x512, .f32⟩
  | 51 => ⟨S14400x512, .f32⟩
  | 52 => ⟨S_, .f32⟩
  | 53 => ⟨S14400x512, .f32⟩
  | 54 => ⟨S14400x512, .f32⟩
  | 55 => ⟨S_, .f32⟩
  | 56 => ⟨S14400x512, .f32⟩
  | 57 => ⟨S14400x512, .f32⟩
  | 58 => ⟨S14400x512, .f32⟩
  | 59 => ⟨S14400x512, .f32⟩
  | 60 => ⟨S14400x512, .f32⟩
  | 61 => ⟨S14400x512, .f32⟩
  | 62 => ⟨S512x640, .f32⟩
  | 63 => ⟨S14400x640, .f32⟩
  | 64 => ⟨S14400x1x4, .f32⟩
  | 65 => ⟨S1x640x4, .f32⟩
  | 66 => ⟨S14400x640x4, .f32⟩
  | 67 => ⟨S14400x640x4, .f32⟩
  | 68 => ⟨S14400x640x4, .f32⟩
  | 69 => ⟨S14400x640x4, .f32⟩
  | 70 => ⟨S_, .f32⟩
  | 71 => ⟨S14400x640, .f32⟩
  | 72 => ⟨S14400x1, .f32⟩
  | 73 => ⟨S14400, .f32⟩
  | 74 => ⟨S14400x1, .f32⟩
  | 75 => ⟨S14400, .f32⟩
  | 76 => ⟨S14400x1, .f32⟩
  | 77 => ⟨S14400, .f32⟩
  | 78 => ⟨S14400x1, .f32⟩
  | 79 => ⟨S14400, .f32⟩
  | 80 => ⟨S_, .f32⟩
  | 81 => ⟨S14400, .f32⟩
  | 82 => ⟨S14400, .f32⟩
  | 83 => ⟨S14400, .f32⟩
  | 84 => ⟨S_, .f32⟩
  | 85 => ⟨S14400, .f32⟩
  | 86 => ⟨S14400, .f32⟩
  | 87 => ⟨S14400, .f32⟩
  | 88 => ⟨S_, .f32⟩
  | 89 => ⟨S14400, .f32⟩
  | 90 => ⟨S14400, .f32⟩
  | 91 => ⟨S14400, .f32⟩
  | 92 => ⟨S_, .f32⟩
  | 93 => ⟨S14400, .f32⟩
  | 94 => ⟨S14400, .f32⟩
  | 95 => ⟨S14400, .f32⟩
  | 96 => ⟨S14400x1, .f32⟩
  | 97 => ⟨S14400x1, .f32⟩
  | 98 => ⟨S14400x1, .f32⟩
  | 99 => ⟨S14400x1, .f32⟩
  | 100 => ⟨S14400x4, .f32⟩
  | 101 => ⟨S640x1, .f32⟩
  | 102 => ⟨S640, .f32⟩
  | 103 => ⟨S640x1, .f32⟩
  | 104 => ⟨S640, .f32⟩
  | 105 => ⟨S640x1, .f32⟩
  | 106 => ⟨S640, .f32⟩
  | 107 => ⟨S640x1, .f32⟩
  | 108 => ⟨S640, .f32⟩
  | 109 => ⟨S_, .f32⟩
  | 110 => ⟨S640, .f32⟩
  | 111 => ⟨S640, .f32⟩
  | 112 => ⟨S640, .f32⟩
  | 113 => ⟨S_, .f32⟩
  | 114 => ⟨S640, .f32⟩
  | 115 => ⟨S640, .f32⟩
  | 116 => ⟨S640, .f32⟩
  | 117 => ⟨S_, .f32⟩
  | 118 => ⟨S640, .f32⟩
  | 119 => ⟨S640, .f32⟩
  | 120 => ⟨S640, .f32⟩
  | 121 => ⟨S_, .f32⟩
  | 122 => ⟨S640, .f32⟩
  | 123 => ⟨S640, .f32⟩
  | 124 => ⟨S640, .f32⟩
  | 125 => ⟨S640x1, .f32⟩
  | 126 => ⟨S640x1, .f32⟩
  | 127 => ⟨S640x1, .f32⟩
  | _ => ⟨S16x900x512, .f32⟩

abbrev hbmTy0_1 (i : Nat) : BufTy := match i % 128 with
  | 0 => ⟨S640x1, .f32⟩
  | 1 => ⟨S640x4, .f32⟩
  | 2 => ⟨S14400x1, .f32⟩
  | 3 => ⟨S14400, .f32⟩
  | 4 => ⟨S14400x1, .f32⟩
  | 5 => ⟨S14400, .f32⟩
  | 6 => ⟨S14400, .f32⟩
  | 7 => ⟨S14400x1, .f32⟩
  | 8 => ⟨S14400, .f32⟩
  | 9 => ⟨S14400x1, .f32⟩
  | 10 => ⟨S14400, .f32⟩
  | 11 => ⟨S14400, .f32⟩
  | 12 => ⟨S14400, .f32⟩
  | 13 => ⟨S640x1, .f32⟩
  | 14 => ⟨S640, .f32⟩
  | 15 => ⟨S640x1, .f32⟩
  | 16 => ⟨S640, .f32⟩
  | 17 => ⟨S640, .f32⟩
  | 18 => ⟨S640x1, .f32⟩
  | 19 => ⟨S640, .f32⟩
  | 20 => ⟨S640x1, .f32⟩
  | 21 => ⟨S640, .f32⟩
  | 22 => ⟨S640, .f32⟩
  | 23 => ⟨S640, .f32⟩
  | 24 => ⟨S14400x2, .f32⟩
  | 25 => ⟨S14400x1x2, .f32⟩
  | 26 => ⟨S640x2, .f32⟩
  | 27 => ⟨S1x640x2, .f32⟩
  | 28 => ⟨S14400x640x2, .f32⟩
  | 29 => ⟨S14400x640x2, .f32⟩
  | 30 => ⟨S14400x640x2, .f32⟩
  | 31 => ⟨S14400x2, .f32⟩
  | 32 => ⟨S14400x1x2, .f32⟩
  | 33 => ⟨S640x2, .f32⟩
  | 34 => ⟨S1x640x2, .f32⟩
  | 35 => ⟨S14400x640x2, .f32⟩
  | 36 => ⟨S14400x640x2, .f32⟩
  | 37 => ⟨S14400x640x2, .f32⟩
  | 38 => ⟨S14400x640x2, .f32⟩
  | 39 => ⟨S_, .f32⟩
  | 40 => ⟨S_, .f32⟩
  | 41 => ⟨S14400x640x2, .f32⟩
  | 42 => ⟨S14400x640x2, .f32⟩
  | 43 => ⟨S14400x640x1, .f32⟩
  | 44 => ⟨S14400x640, .f32⟩
  | 45 => ⟨S14400x640x1, .f32⟩
  | 46 => ⟨S14400x640, .f32⟩
  | 47 => ⟨S14400x640, .f32⟩
  | 48 => ⟨S14400x1, .f32⟩
  | 49 => ⟨S1x640, .f32⟩
  | 50 => ⟨S14400x640, .f32⟩
  | 51 => ⟨S14400x640, .f32⟩
  | 52 => ⟨S14400x640, .f32⟩
  | 53 => ⟨S14400x640, .f32⟩
  | 54 => ⟨S14400x640, .f32⟩
  | 55 => ⟨S14400x2, .f32⟩
  | 56 => ⟨S14400x1x2, .f32⟩
  | 57 => ⟨S640x2, .f32⟩
  | 58 => ⟨S1x640x2, .f32⟩
  | 59 => ⟨S14400x640x2, .f32⟩
  | 60 => ⟨S14400x640x2, .f32⟩
  | 61 => ⟨S14400x640x2, .f32⟩
  | 62 => ⟨S14400x2, .f32⟩
  | 63 => ⟨S14400x1x2, .f32⟩
  | 64 => ⟨S640x2, .f32⟩
  | 65 => ⟨S1x640x2, .f32⟩
  | 66 => ⟨S14400x640x2, .f32⟩
  | 67 => ⟨S14400x640x2, .f32⟩
  | 68 => ⟨S14400x640x2, .f32⟩
  | 69 => ⟨S14400x640x2, .f32⟩
  | 70 => ⟨S_, .f32⟩
  | 71 => ⟨S_, .f32⟩
  | 72 => ⟨S14400x640x2, .f32⟩
  | 73 => ⟨S14400x640x2, .f32⟩
  | 74 => ⟨S14400x640x1, .f32⟩
  | 75 => ⟨S14400x640, .f32⟩
  | 76 => ⟨S14400x640x1, .f32⟩
  | 77 => ⟨S14400x640, .f32⟩
  | 78 => ⟨S14400x640, .f32⟩
  | 79 => ⟨S14400x640, .f32⟩
  | 80 => ⟨S14400x640, .f32⟩
  | 81 => ⟨S14400x640, .f32⟩
  | 82 => ⟨S14400x640, .f32⟩
  | 83 => ⟨S_, .f32⟩
  | 84 => ⟨S14400x640, .f32⟩
  | 85 => ⟨S14400x640, .f32⟩
  | 86 => ⟨S_, .f32⟩
  | 87 => ⟨S14400x640, .f32⟩
  | 88 => ⟨S14400x640, .f32⟩
  | 89 => ⟨S14400x640, .f32⟩
  | 90 => ⟨S_, .f32⟩
  | 91 => ⟨S14400x640, .f32⟩
  | 92 => ⟨S14400x640, .f32⟩
  | 93 => ⟨S14400x640, .f32⟩
  | 94 => ⟨S16x900x640, .f32⟩
  | _ => ⟨S16x900x512, .f32⟩

abbrev hbmTy (i : Nat) : BufTy := match i / 128 with
  | 0 => hbmTy0_0 i
  | 1 => hbmTy0_1 i
  | _ => ⟨S16x900x512, .f32⟩

abbrev bufTy : (tb : Table) → Fin (tcTables nBuf tb) → BufTy
  | .hbm, ⟨i, _⟩ => hbmTy i
  | _, _ => ⟨S16x900x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_20 : Ref sig .tc := ⟨.hbm, 167, rfl⟩
abbrev main_call0_v0 : Ref sig .tc := ⟨.hbm, 168, rfl⟩
abbrev main_call0_v1 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_cst_21 : Ref sig .tc := ⟨.hbm, 198, rfl⟩
abbrev main_call1_v0 : Ref sig .tc := ⟨.hbm, 199, rfl⟩
abbrev main_call1_v1 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_cst_22 : Ref sig .tc := ⟨.hbm, 211, rfl⟩
abbrev main_v178 : Ref sig .tc := ⟨.hbm, 212, rfl⟩
abbrev main_v179 : Ref sig .tc := ⟨.hbm, 213, rfl⟩
abbrev main_cst_23 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_cst_24 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩

abbrev nD : Nat := 1
abbrev τ : Topo := Topo.v7x

variable {F : FTy → Type} [FloatOps F]

class Facts₀ : Prop where
  shapeCasts_S16x900x512_S14400x512 : S16x900x512.ShapeCasts S14400x512
  bcast_S_S14400x512 : S_.BroadcastsInDim S14400x512 (![] : Fin 0 → Fin S14400x512.rank)
  shapeCasts_S16x900x4_S14400x4 : S16x900x4.ShapeCasts S14400x4
  bcast_S_S16x40 : S_.BroadcastsInDim S16x40 (![] : Fin 0 → Fin S16x40.rank)
  bcast_S16x40_S16x40x1_0_1 : S16x40.BroadcastsInDim S16x40x1 (![0, 1] : Fin 2 → Fin S16x40x1.rank)
  shapeCasts_S16x40x512_S640x512 : S16x40x512.ShapeCasts S640x512
  reducesTo_S640x512_S640_d1 : S640x512.ReducesTo [1] S640
  h_S_ : 0 < S_.numel
  bcast_S640_S640x1_0 : S640.BroadcastsInDim S640x1 (![0] : Fin 1 → Fin S640x1.rank)
  bcast_S640x1_S640x512_0_1 : S640x1.BroadcastsInDim S640x512 (![0, 1] : Fin 2 → Fin S640x512.rank)
  shapeCasts_S16x40x4_S640x4 : S16x40x4.ShapeCasts S640x4
  transposes_S640x512_S512x640_1_0 : S640x512.Transposes [1, 0] S512x640
  bcast_S14400x4_S14400x1x4_0_2 : S14400x4.BroadcastsInDim S14400x1x4 (![0, 2] : Fin 2 → Fin S14400x1x4.rank)
  bcast_S640x4_S1x640x4_1_2 : S640x4.BroadcastsInDim S1x640x4 (![1, 2] : Fin 2 → Fin S1x640x4.rank)
  bcast_S14400x1x4_S14400x640x4_0_1_2 : S14400x1x4.BroadcastsInDim S14400x640x4 (![0, 1, 2] : Fin 3 → Fin S14400x640x4.rank)
  bcast_S1x640x4_S14400x640x4_0_1_2 : S1x640x4.BroadcastsInDim S14400x640x4 (![0, 1, 2] : Fin 3 → Fin S14400x640x4.rank)
  reducesTo_S14400x640x4_S14400x640_d2 : S14400x640x4.ReducesTo [2] S14400x640
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S640x4_S640x1_0_0 : S640x4.Slices ![0, 0] S640x1
  shapeCasts_S640x1_S640 : S640x1.ShapeCasts S640
  slices_S640x4_S640x1_0_1 : S640x4.Slices ![0, 1] S640x1
  slices_S640x4_S640x1_0_2 : S640x4.Slices ![0, 2] S640x1
  slices_S640x4_S640x1_0_3 : S640x4.Slices ![0, 3] S640x1
  bcast_S_S640 : S_.BroadcastsInDim S640 (![] : Fin 0 → Fin S640.rank)
  concatenates_S640x1_S640x1_S640x1_S640x1_S640x4_d1 : Shape.Concatenates [S640x1, S640x1, S640x1, S640x1] S640x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S640x4_S640x2_0_0 : S640x4.Slices ![0, 0] S640x2
  bcast_S640x2_S1x640x2_1_2 : S640x2.BroadcastsInDim S1x640x2 (![1, 2] : Fin 2 → Fin S1x640x2.rank)
  bcast_S14400x1x2_S14400x640x2_0_1_2 : S14400x1x2.BroadcastsInDim S14400x640x2 (![0, 1, 2] : Fin 3 → Fin S14400x640x2.rank)
  bcast_S1x640x2_S14400x640x2_0_1_2 : S1x640x2.BroadcastsInDim S14400x640x2 (![0, 1, 2] : Fin 3 → Fin S14400x640x2.rank)
  slices_S14400x4_S14400x2_0_2 : S14400x4.Slices ![0, 2] S14400x2
  slices_S640x4_S640x2_0_2 : S640x4.Slices ![0, 2] S640x2
  bcast_S_S14400x640x2 : S_.BroadcastsInDim S14400x640x2 (![] : Fin 0 → Fin S14400x640x2.rank)
  slices_S14400x640x2_S14400x640x1_0_0_0 : S14400x640x2.Slices ![0, 0, 0] S14400x640x1
  shapeCasts_S14400x640x1_S14400x640 : S14400x640x1.ShapeCasts S14400x640
  slices_S14400x640x2_S14400x640x1_0_0_1 : S14400x640x2.Slices ![0, 0, 1] S14400x640x1
  bcast_S640_S1x640_1 : S640.BroadcastsInDim S1x640 (![1] : Fin 1 → Fin S1x640.rank)
  bcast_S14400x1_S14400x640_0_1 : S14400x1.BroadcastsInDim S14400x640 (![0, 1] : Fin 2 → Fin S14400x640.rank)
  bcast_S1x640_S14400x640_0_1 : S1x640.BroadcastsInDim S14400x640 (![0, 1] : Fin 2 → Fin S14400x640.rank)
  bcast_S_S14400x640 : S_.BroadcastsInDim S14400x640 (![] : Fin 0 → Fin S14400x640.rank)
  shapeCasts_S14400x640_S16x900x640 : S14400x640.ShapeCasts S16x900x640
  gather_S16x91x512_S16x40x1_S16x40x512_2_1_0_0_1_2_11512_wf : GatherDims.WF S16x91x512 S16x40x1 S16x40x512 [2] [1] [0] [1] [0] 2 ![1, 1, 512]
  dot_S14400x512_S512x640_S14400x640_1_0_0_1_n_n_wf : DotDims.WF S14400x512 S512x640 S14400x640 [1] [0] [0] [1] [] []

variable [Facts₀]

def gather_S16x91x512_S16x40x1_S16x40x512_2_1_0_0_1_2_11512 : GatherDims S16x91x512 S16x40x1 S16x40x512 where
  offsetDims := [2]
  collapsedSliceDims := [1]
  operandBatchingDims := [0]
  startIndicesBatchingDims := [0]
  startIndexMap := [1]
  indexVectorDim := 2
  sliceSizes := ![1, 1, 512]
  wf := gather_S16x91x512_S16x40x1_S16x40x512_2_1_0_0_1_2_11512_wf
def dot_S14400x512_S512x640_S14400x640_1_0_0_1_n_n : DotDims S14400x512 S512x640 S14400x640 where
  lhsContracting := [1]
  rhsContracting := [0]
  lhsNonContracting := [0]
  rhsNonContracting := [1]
  lhsBatch := []
  rhsBatch := []
  wf := dot_S14400x512_S512x640_S14400x640_1_0_0_1_n_n_wf

class Facts : Prop extends Facts₀ where

variable [Facts]
-- ==== Proof.KernelFrame.lean ====
/- The frame of Kernel's @main, for any float instance F.

   @main is sixty-four host operations, one pipelined region over a grid of ten points, and one closing
   reshape. No host operation writes an argument array, and the region stages none of them: its five
   windows sit on the intermediate arrays %54 (the logits, in row blocks of 1440), %55 (the boxes, in
   row blocks of 1440), %13 (the bf16 class matrix, whole), %53 (the sixteen auxiliary rows, whole) and
   %56 (the cost matrix, written back in row blocks of 1440). This module states what the region's run
   leaves in each array: every input array as the region found it, and block t of the cost matrix at
   out0_4 of the four input blocks of point t, the one value the body stores. From that run the frame
   claim follows: the execution terminates without a fault and the five argument arrays end as launched. -/
import proofs.«123953_j11467562680409_2_alg».proof.Proof.Gen.Kernel.Launch
import proofs.«123953_j11467562680409_2_alg».proof.Proof.Gen.Kernel.Skeleton
import proofs.«123953_j11467562680409_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding that a point lies in a rectangle 1440 rows long recurses once per row
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core c's TensorCore buffers hold when the region starts: the launch memory carried through the
    sixty-four host operations in order. -/
abbrev V0 (c : Dev nD) : Valuation τ sig (Elt F) := StableHlo.after (List.flatten [hostOps0]) (fun b => m (c, b))
/-- The same contents, read at a TensorCore reference. -/
abbrev V (c : Dev nD) (b : Ref sig .tc) : Buf (Elt F) ((c : Thread nD τ).loc b) := V0 m c (Proc.devRef .tc b)

/-- None of the sixty-four operations allocates a buffer (the sixteen-operand concatenation included). -/
theorem hostOps0_fresh : (hostOps0 : List (HloOp τ sig (Elt F))).Forall fun op => op.fresh = ∅ := by
  simp only [List.Forall]; repeat' constructor
/-- Neither does the closing reshape. -/
theorem hostOps1_fresh : (hostOps1 : List (HloOp τ sig (Elt F))).Forall fun op => op.fresh = ∅ := by
  simp only [List.Forall]; repeat' constructor

/-- @main is the host operations, then the region, then the closing reshape; run from m it reaches the region
    with the buffers at V and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape reads %56 and writes %57: unscoped TensorCore buffers, which with nothing prefetched are
    exactly the references the tail of a region may touch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- It writes %57 only, which is none of the five windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  subst hop
  intro w
  fin_cases w <;> simp only [StableHlo.reshape_writes, Finset.mem_singleton] <;> exact StableHlo.devRef_ne_of_ne (by decide)

/-- Every operation of a list of host operations, each writing its one result buffer, misses the reference at
    hand: the list is unfolded, each operation's written set is its result, and the results are other buffers. -/
local macro "writes_miss" : tactic => `(tactic|
  (simp only [hostOps0, hostOps1, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
   repeat' apply And.intro
   all_goals exact StableHlo.devRef_ne_of_ne (by decide)))

/-- The region finds the logits argument as launched: no operation before it writes %arg0. -/
theorem V_main_arg0 (c : Dev nD) : V m c main_arg0 = m ((c : Thread nD τ).loc main_arg0) :=
  StableHlo.after_of_forall_not_mem (b := Proc.devRef .tc main_arg0) _ _ (List.forall_iff_forall_mem.mp (by writes_miss))
/-- The region finds the boxes argument as launched. -/
theorem V_main_arg1 (c : Dev nD) : V m c main_arg1 = m ((c : Thread nD τ).loc main_arg1) :=
  StableHlo.after_of_forall_not_mem (b := Proc.devRef .tc main_arg1) _ _ (List.forall_iff_forall_mem.mp (by writes_miss))
/-- The region finds the target-logits argument as launched. -/
theorem V_main_arg2 (c : Dev nD) : V m c main_arg2 = m ((c : Thread nD τ).loc main_arg2) :=
  StableHlo.after_of_forall_not_mem (b := Proc.devRef .tc main_arg2) _ _ (List.forall_iff_forall_mem.mp (by writes_miss))
/-- The region finds the target-boxes argument as launched. -/
theorem V_main_arg3 (c : Dev nD) : V m c main_arg3 = m ((c : Thread nD τ).loc main_arg3) :=
  StableHlo.after_of_forall_not_mem (b := Proc.devRef .tc main_arg3) _ _ (List.forall_iff_forall_mem.mp (by writes_miss))
/-- The region finds the class-index argument as launched. -/
theorem V_main_arg4 (c : Dev nD) : V m c main_arg4 = m ((c : Thread nD τ).loc main_arg4) :=
  StableHlo.after_of_forall_not_mem (b := Proc.devRef .tc main_arg4) _ _ (List.forall_iff_forall_mem.mp (by writes_miss))

/-- Any of the five argument arrays after the closing reshape: the reshape writes %57, the region writes only its
    windows' arrays, and neither is an argument, so the array is as the region found it. -/
local macro "tail_keeps " b:term ", " h:term : tactic => `(tactic|
  (unfold Pipeline.afterTail₀
   rw [StableHlo.after_of_forall_not_mem (b := Proc.devRef .tc $b) _ _ (List.forall_iff_forall_mem.mp (by writes_miss)),
     Pipeline.withArrays_of_ne _ _ _ _ $b (by exact (by decide : ∀ w, Pipeline.arrRef spec0 w ≠ $b))]
   exact $h))

/-- The logits argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  tail_keeps main_arg0, V_main_arg0 m c
/-- The boxes argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  tail_keeps main_arg1, V_main_arg1 m c
/-- The target-logits argument ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  tail_keeps main_arg2, V_main_arg2 m c
/-- The target-boxes argument ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  tail_keeps main_arg3, V_main_arg3 m c
/-- The class-index argument ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  tail_keeps main_arg4, V_main_arg4 m c

/-! ## The blocks the body is handed -/

/-- Block t of window w: the rows (for the two constant windows, the whole) of its array that point t works on,
    read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window w's staging buffer holds its block at every point, for any proof data over the arrays V whose
    body leaves the block where it is. Where the window is fetched this is what the fetch brings; where it is not
    (the class matrix and the auxiliary rows, after the first point) the block index has not moved since the point
    before, and the buffer still holds that point's block. The windows are uncut and never idle. -/
local macro "block_stays " w:term ", " dat:term ", " hA:term ", " hafter:term ", " t:term ", " d:term : term => `(
  (Dat.before_in_eq_fetched $dat $w rfl (fun _ => rfl) (fun _ _ _ => rfl)
      (fun t => by rw [$hafter:term]; unfold Dat.blockOf iblk; rw [$hA:term]; try rfl) $t $d).trans
    (by unfold Dat.fetched Dat.blockOf iblk; rw [$hA:term]; try rfl))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  block_stays 0, dat, hA, hafter, t, d
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  block_stays 1, dat, hA, hafter, t, d
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  block_stays 2, dat, hA, hafter, t, d
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  block_stays 3, dat, hA, hafter, t, d

/-! ## From the region's run to the frame claim -/

/-- A run of @main that ends with every buffer outside the windows' arrays as the closing reshape leaves it ends
    with the five argument arrays as launched: none of them is a window's array, and W_main_argK says what the
    reshape leaves there. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The rectangles the body reads and writes -/

/-- The whole logits block. -/
abbrev r0_0 : Rect S1440x512 := Rect.unit (s := S1440x512) ![0, 0] S1440x512.size inb_S1440x512_S1440x512_0_0
/-- The whole class matrix. -/
abbrev r0_1 : Rect S512x640 := Rect.unit (s := S512x640) ![0, 0] S512x640.size inb_S512x640_S512x640_0_0
/-- Columns 0, 1, 2, 3 of the boxes block (centre x, centre y, width, height). -/
abbrev r0_2 : Rect S1440x4 := Rect.unit (s := S1440x4) ![0, 0] S1440x1.size inb_S1440x4_S1440x1_0_0
abbrev r0_3 : Rect S1440x4 := Rect.unit (s := S1440x4) ![0, 1] S1440x1.size inb_S1440x4_S1440x1_0_1
abbrev r0_4 : Rect S1440x4 := Rect.unit (s := S1440x4) ![0, 2] S1440x1.size inb_S1440x4_S1440x1_0_2
abbrev r0_5 : Rect S1440x4 := Rect.unit (s := S1440x4) ![0, 3] S1440x1.size inb_S1440x4_S1440x1_0_3
/-- Rows 0 … 8 of the auxiliary rows. -/
abbrev r0_6 : Rect S16x640 := Rect.unit (s := S16x640) ![0, 0] S1x640.size inb_S16x640_S1x640_0_0
abbrev r0_7 : Rect S16x640 := Rect.unit (s := S16x640) ![1, 0] S1x640.size inb_S16x640_S1x640_1_0
abbrev r0_8 : Rect S16x640 := Rect.unit (s := S16x640) ![2, 0] S1x640.size inb_S16x640_S1x640_2_0
abbrev r0_9 : Rect S16x640 := Rect.unit (s := S16x640) ![3, 0] S1x640.size inb_S16x640_S1x640_3_0
abbrev r0_10 : Rect S16x640 := Rect.unit (s := S16x640) ![4, 0] S1x640.size inb_S16x640_S1x640_4_0
abbrev r0_11 : Rect S16x640 := Rect.unit (s := S16x640) ![5, 0] S1x640.size inb_S16x640_S1x640_5_0
abbrev r0_12 : Rect S16x640 := Rect.unit (s := S16x640) ![6, 0] S1x640.size inb_S16x640_S1x640_6_0
abbrev r0_13 : Rect S16x640 := Rect.unit (s := S16x640) ![7, 0] S1x640.size inb_S16x640_S1x640_7_0
abbrev r0_14 : Rect S16x640 := Rect.unit (s := S16x640) ![8, 0] S1x640.size inb_S16x640_S1x640_8_0
/-- The whole cost block: the one store's rectangle. -/
abbrev r0_15 : Rect S1440x640 := Rect.unit (s := S1440x640) ![0, 0] S1440x640.size inb_S1440x640_S1440x640_0_0

/-! ## What the body leaves in the cost block -/

/-- The cost block after the body, from the four input blocks x0 (logits), x1 (boxes), x2 (class matrix), x3
    (auxiliary rows): the body's one store, over the whole block, of
      5 · (L1 box cost) + 2 · (class cost) + 2 · (0 − generalized IoU)
    with the class cost from the product of x0 with x2, the L1 cost from the four columns of x1 against rows 0 … 3
    of x3, and the overlap terms from the columns of x1 against rows 4 … 8 of x3. -/
def out0_4 (x0 : Vec F S1440x512 .f32) (x1 : Vec F S1440x4 .f32) (x2 : Vec F S512x640 .bf16) (x3 : Vec F S16x640 .f32) : Vec F S1440x640 .f32 :=
  View.canon [⟨r0_15,
    k0_pay1
      (k0_pay2 (View.ld x0 r0_0) (View.ld x2 r0_1))
      (k0_pay22 (k0_pay6 (View.ld x1 r0_5)) (k0_pay13 (View.ld x3 r0_8)) (k0_pay14 (View.ld x3 r0_9))
        (k0_pay20 (k0_pay3 (View.ld x1 r0_2)) (k0_pay4 (View.ld x1 r0_3)) (View.ld x3 r0_6) (View.ld x3 r0_7))
        (k0_pay21 (k0_pay5 (View.ld x1 r0_4))))
      (k0_pay23
        (k0_pay8 (k0_pay3 (View.ld x1 r0_2)) (k0_pay7 (View.ld x1 r0_4)))
        (k0_pay9 (k0_pay4 (View.ld x1 r0_3)) (k0_pay6 (View.ld x1 r0_5)))
        (k0_pay10 (k0_pay3 (View.ld x1 r0_2)) (k0_pay5 (View.ld x1 r0_4)))
        (k0_pay11 (k0_pay4 (View.ld x1 r0_3)) (k0_pay6 (View.ld x1 r0_5)))
        (k0_pay12 (k0_pay5 (View.ld x1 r0_4)) (k0_pay6 (View.ld x1 r0_5)))
        (k0_pay15 (View.ld x3 r0_10)) (k0_pay16 (View.ld x3 r0_11)) (k0_pay17 (View.ld x3 r0_12))
        (k0_pay18 (View.ld x3 r0_13)) (k0_pay19 (View.ld x3 r0_14)))
      (Scalar.ofBits .f32 0x40A00000#32)⟩]

/-- The one store covers the cost block: its rectangle is the whole block. -/
theorem cover0_4 (p0 : Vec F S1440x640 .f32) (y : S1440x640.Idx) :
    ∃ pc ∈ ([⟨r0_15, p0⟩] : List (View.Piece (Elt F) S1440x640 .f32)), y ∈ pc.1.set :=
  View.cover_of_tiled [⟨r0_15, p0⟩] S1440x640.size (by rfl) y

/-! ## The region's proof data -/

/-- On core c: the arrays as the region finds them; after the body at point t every input buffer still at its
    block, and the cost buffer at out0_4 of the four input blocks; the invariant that the scoped rest and the
    generator register stay untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The data's arrays are the region-entry contents (read off the definition; V stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input buffer holds its block when the body is called, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's triple -/

set_option maxHeartbeats 1000000 in
/-- The body on whole staging buffers, the four inputs at x0 … x3 and the cost buffer at anything, runs to a state
    with the inputs as they were and the cost buffer at out0_4 x0 x1 x2 x3: it loads the inputs through the
    rectangles above, reads the cost buffer once without using what it read, and stores one value over the whole
    cost block. -/
theorem sound_kernel (c : Dev nD) (E : Set ℕ) (i : grid0.Coords)
    (arg1 : Memref sig .tc .vmem S1440x512 .f32) (harg1 : arg1.IsWhole) (arg2 : Memref sig .tc .vmem S1440x4 .f32) (harg2 : arg2.IsWhole)
    (arg3 : Memref sig .tc .vmem S512x640 .bf16) (harg3 : arg3.IsWhole) (arg4 : Memref sig .tc .vmem S16x640 .f32) (harg4 : arg4.IsWhole)
    (arg5 : Memref sig .tc .vmem S1440x640 .f32) (harg5 : arg5.IsWhole)
    (x0 : Vec F S1440x512 .f32) (x1 : Vec F S1440x4 .f32) (x2 : Vec F S512x640 .bf16) (x3 : Vec F S16x640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body at a point of the grid -/

/-- What the pipeline hands the body at point t: the invariant, the core's debt, and each window's current
    staging buffer, whole, at what the data say it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body hands back: the same, each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at point t: the four input buffers hold their blocks, so sound_kernel runs it; what the cost buffer
    held is read and dropped; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets its obligation at every point of the grid. -/
theorem body_obligation (c : Dev nD) : BodyObligation (dats (F := F) m 0 c) (defs₀ (F := F)) Variants.none () Set.univ := fun t => by
  rw [bigSep_W0, bigSep_W0]
  exact sound_body m c t

/-! ## The run of @main and the frame -/

-- the launch theorem's implicit arguments are found by unifying its conclusion with the statement below, which
-- unfolds plain definitions inside a metavariable's type
set_option backward.isDefEq.respectTransparency.types false in
/-- From any memory with the semaphores at zero, every weakly fair execution of @main terminates without a fault,
    and ends with each window's array at what the data compute for it (an input array as the region found it;
    block t of the cost matrix at out0_4 of point t's input blocks) and every other unscoped buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of Kernel at any float instance: @main terminates without a fault and its five argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Frm

end
-- ==== Proof.KernelIdealFrame.lean ====
/- The frame of KernelIdeal's @main, for any float instance F.

   @main is sixty-four host operations, one pipelined region over a grid of ten points, and one closing
   reshape. No host operation writes an argument array, and the region stages none of them: its five
   windows sit on the intermediate arrays %54 (the logits, in row blocks of 1440), %55 (the boxes, in
   row blocks of 1440), %13 (the bf16 class matrix, whole), %53 (the sixteen auxiliary rows, whole) and
   %56 (the cost matrix, written back in row blocks of 1440). This module states what the region's run
   leaves in each array: every input array as the region found it, and block t of the cost matrix at
   out0_4 of the four input blocks of point t, the one value the body stores. From that run the frame
   claim follows: the execution terminates without a fault and the five argument arrays end as launched. -/
import proofs.«123953_j11467562680409_2_alg».proof.Proof.Gen.KernelIdeal.Launch
import proofs.«123953_j11467562680409_2_alg».proof.Proof.Gen.KernelIdeal.Skeleton
import proofs.«123953_j11467562680409_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding that a point lies in a rectangle 1440 rows long recurses once per row
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core c's TensorCore buffers hold when the region starts: the launch memory carried through the
    sixty-four host operations in order. -/
abbrev V0 (c : Dev nD) : Valuation τ sig (Elt F) := StableHlo.after (List.flatten [hostOps0]) (fun b => m (c, b))
/-- The same contents, read at a TensorCore reference. -/
abbrev V (c : Dev nD) (b : Ref sig .tc) : Buf (Elt F) ((c : Thread nD τ).loc b) := V0 m c (Proc.devRef .tc b)

/-- None of the sixty-four operations allocates a buffer (the sixteen-operand concatenation included). -/
theorem hostOps0_fresh : (hostOps0 : List (HloOp τ sig (Elt F))).Forall fun op => op.fresh = ∅ := by
  simp only [List.Forall]; repeat' constructor
/-- Neither does the closing reshape. -/
theorem hostOps1_fresh : (hostOps1 : List (HloOp τ sig (Elt F))).Forall fun op => op.fresh = ∅ := by
  simp only [List.Forall]; repeat' constructor

/-- @main is the host operations, then the region, then the closing reshape; run from m it reaches the region
    with the buffers at V and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape reads %56 and writes %57: unscoped TensorCore buffers, which with nothing prefetched are
    exactly the references the tail of a region may touch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- It writes %57 only, which is none of the five windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  subst hop
  intro w
  fin_cases w <;> simp only [StableHlo.reshape_writes, Finset.mem_singleton] <;> exact StableHlo.devRef_ne_of_ne (by decide)

/-- Every operation of a list of host operations, each writing its one result buffer, misses the reference at
    hand: the list is unfolded, each operation's written set is its result, and the results are other buffers. -/
local macro "writes_miss" : tactic => `(tactic|
  (simp only [hostOps0, hostOps1, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
   repeat' apply And.intro
   all_goals exact StableHlo.devRef_ne_of_ne (by decide)))

/-- The region finds the logits argument as launched: no operation before it writes %arg0. -/
theorem V_main_arg0 (c : Dev nD) : V m c main_arg0 = m ((c : Thread nD τ).loc main_arg0) :=
  StableHlo.after_of_forall_not_mem (b := Proc.devRef .tc main_arg0) _ _ (List.forall_iff_forall_mem.mp (by writes_miss))
/-- The region finds the boxes argument as launched. -/
theorem V_main_arg1 (c : Dev nD) : V m c main_arg1 = m ((c : Thread nD τ).loc main_arg1) :=
  StableHlo.after_of_forall_not_mem (b := Proc.devRef .tc main_arg1) _ _ (List.forall_iff_forall_mem.mp (by writes_miss))
/-- The region finds the target-logits argument as launched. -/
theorem V_main_arg2 (c : Dev nD) : V m c main_arg2 = m ((c : Thread nD τ).loc main_arg2) :=
  StableHlo.after_of_forall_not_mem (b := Proc.devRef .tc main_arg2) _ _ (List.forall_iff_forall_mem.mp (by writes_miss))
/-- The region finds the target-boxes argument as launched. -/
theorem V_main_arg3 (c : Dev nD) : V m c main_arg3 = m ((c : Thread nD τ).loc main_arg3) :=
  StableHlo.after_of_forall_not_mem (b := Proc.devRef .tc main_arg3) _ _ (List.forall_iff_forall_mem.mp (by writes_miss))
/-- The region finds the class-index argument as launched. -/
theorem V_main_arg4 (c : Dev nD) : V m c main_arg4 = m ((c : Thread nD τ).loc main_arg4) :=
  StableHlo.after_of_forall_not_mem (b := Proc.devRef .tc main_arg4) _ _ (List.forall_iff_forall_mem.mp (by writes_miss))

/-- Any of the five argument arrays after the closing reshape: the reshape writes %57, the region writes only its
    windows' arrays, and neither is an argument, so the array is as the region found it. -/
local macro "tail_keeps " b:term ", " h:term : tactic => `(tactic|
  (unfold Pipeline.afterTail₀
   rw [StableHlo.after_of_forall_not_mem (b := Proc.devRef .tc $b) _ _ (List.forall_iff_forall_mem.mp (by writes_miss)),
     Pipeline.withArrays_of_ne _ _ _ _ $b (by exact (by decide : ∀ w, Pipeline.arrRef spec0 w ≠ $b))]
   exact $h))

/-- The logits argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  tail_keeps main_arg0, V_main_arg0 m c
/-- The boxes argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  tail_keeps main_arg1, V_main_arg1 m c
/-- The target-logits argument ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  tail_keeps main_arg2, V_main_arg2 m c
/-- The target-boxes argument ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  tail_keeps main_arg3, V_main_arg3 m c
/-- The class-index argument ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  tail_keeps main_arg4, V_main_arg4 m c

/-! ## The blocks the body is handed -/

/-- Block t of window w: the rows (for the two constant windows, the whole) of its array that point t works on,
    read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window w's staging buffer holds its block at every point, for any proof data over the arrays V whose
    body leaves the block where it is. Where the window is fetched this is what the fetch brings; where it is not
    (the class matrix and the auxiliary rows, after the first point) the block index has not moved since the point
    before, and the buffer still holds that point's block. The windows are uncut and never idle. -/
local macro "block_stays " w:term ", " dat:term ", " hA:term ", " hafter:term ", " t:term ", " d:term : term => `(
  (Dat.before_in_eq_fetched $dat $w rfl (fun _ => rfl) (fun _ _ _ => rfl)
      (fun t => by rw [$hafter:term]; unfold Dat.blockOf iblk; rw [$hA:term]; try rfl) $t $d).trans
    (by unfold Dat.fetched Dat.blockOf iblk; rw [$hA:term]; try rfl))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  block_stays 0, dat, hA, hafter, t, d
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  block_stays 1, dat, hA, hafter, t, d
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  block_stays 2, dat, hA, hafter, t, d
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  block_stays 3, dat, hA, hafter, t, d

/-! ## From the region's run to the frame claim -/

/-- A run of @main that ends with every buffer outside the windows' arrays as the closing reshape leaves it ends
    with the five argument arrays as launched: none of them is a window's array, and W_main_argK says what the
    reshape leaves there. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The rectangles the body reads and writes -/

/-- The whole logits block. -/
abbrev r0_0 : Rect S1440x512 := Rect.unit (s := S1440x512) ![0, 0] S1440x512.size inb_S1440x512_S1440x512_0_0
/-- The whole class matrix. -/
abbrev r0_1 : Rect S512x640 := Rect.unit (s := S512x640) ![0, 0] S512x640.size inb_S512x640_S512x640_0_0
/-- Columns 0, 1, 2, 3 of the boxes block (centre x, centre y, width, height). -/
abbrev r0_2 : Rect S1440x4 := Rect.unit (s := S1440x4) ![0, 0] S1440x1.size inb_S1440x4_S1440x1_0_0
abbrev r0_3 : Rect S1440x4 := Rect.unit (s := S1440x4) ![0, 1] S1440x1.size inb_S1440x4_S1440x1_0_1
abbrev r0_4 : Rect S1440x4 := Rect.unit (s := S1440x4) ![0, 2] S1440x1.size inb_S1440x4_S1440x1_0_2
abbrev r0_5 : Rect S1440x4 := Rect.unit (s := S1440x4) ![0, 3] S1440x1.size inb_S1440x4_S1440x1_0_3
/-- Rows 0 … 8 of the auxiliary rows. -/
abbrev r0_6 : Rect S16x640 := Rect.unit (s := S16x640) ![0, 0] S1x640.size inb_S16x640_S1x640_0_0
abbrev r0_7 : Rect S16x640 := Rect.unit (s := S16x640) ![1, 0] S1x640.size inb_S16x640_S1x640_1_0
abbrev r0_8 : Rect S16x640 := Rect.unit (s := S16x640) ![2, 0] S1x640.size inb_S16x640_S1x640_2_0
abbrev r0_9 : Rect S16x640 := Rect.unit (s := S16x640) ![3, 0] S1x640.size inb_S16x640_S1x640_3_0
abbrev r0_10 : Rect S16x640 := Rect.unit (s := S16x640) ![4, 0] S1x640.size inb_S16x640_S1x640_4_0
abbrev r0_11 : Rect S16x640 := Rect.unit (s := S16x640) ![5, 0] S1x640.size inb_S16x640_S1x640_5_0
abbrev r0_12 : Rect S16x640 := Rect.unit (s := S16x640) ![6, 0] S1x640.size inb_S16x640_S1x640_6_0
abbrev r0_13 : Rect S16x640 := Rect.unit (s := S16x640) ![7, 0] S1x640.size inb_S16x640_S1x640_7_0
abbrev r0_14 : Rect S16x640 := Rect.unit (s := S16x640) ![8, 0] S1x640.size inb_S16x640_S1x640_8_0
/-- The whole cost block: the one store's rectangle. -/
abbrev r0_15 : Rect S1440x640 := Rect.unit (s := S1440x640) ![0, 0] S1440x640.size inb_S1440x640_S1440x640_0_0

/-! ## What the body leaves in the cost block -/

/-- The cost block after the body, from the four input blocks x0 (logits), x1 (boxes), x2 (class matrix), x3
    (auxiliary rows): the body's one store, over the whole block, of
      5 · (L1 box cost) + 2 · (class cost) + 2 · (0 − generalized IoU)
    with the class cost from the product of x0 with x2, the L1 cost from the four columns of x1 against rows 0 … 3
    of x3, and the overlap terms from the columns of x1 against rows 4 … 8 of x3. -/
def out0_4 (x0 : Vec F S1440x512 .f32) (x1 : Vec F S1440x4 .f32) (x2 : Vec F S512x640 .bf16) (x3 : Vec F S16x640 .f32) : Vec F S1440x640 .f32 :=
  View.canon [⟨r0_15,
    k0_pay1
      (k0_pay2 (View.ld x0 r0_0) (View.ld x2 r0_1))
      (k0_pay22 (k0_pay6 (View.ld x1 r0_5)) (k0_pay13 (View.ld x3 r0_8)) (k0_pay14 (View.ld x3 r0_9))
        (k0_pay20 (k0_pay3 (View.ld x1 r0_2)) (k0_pay4 (View.ld x1 r0_3)) (View.ld x3 r0_6) (View.ld x3 r0_7))
        (k0_pay21 (k0_pay5 (View.ld x1 r0_4))))
      (k0_pay23
        (k0_pay8 (k0_pay3 (View.ld x1 r0_2)) (k0_pay7 (View.ld x1 r0_4)))
        (k0_pay9 (k0_pay4 (View.ld x1 r0_3)) (k0_pay6 (View.ld x1 r0_5)))
        (k0_pay10 (k0_pay3 (View.ld x1 r0_2)) (k0_pay5 (View.ld x1 r0_4)))
        (k0_pay11 (k0_pay4 (View.ld x1 r0_3)) (k0_pay6 (View.ld x1 r0_5)))
        (k0_pay12 (k0_pay5 (View.ld x1 r0_4)) (k0_pay6 (View.ld x1 r0_5)))
        (k0_pay15 (View.ld x3 r0_10)) (k0_pay16 (View.ld x3 r0_11)) (k0_pay17 (View.ld x3 r0_12))
        (k0_pay18 (View.ld x3 r0_13)) (k0_pay19 (View.ld x3 r0_14)))
      (Scalar.ofBits .f32 0x40A00000#32)⟩]

/-- The one store covers the cost block: its rectangle is the whole block. -/
theorem cover0_4 (p0 : Vec F S1440x640 .f32) (y : S1440x640.Idx) :
    ∃ pc ∈ ([⟨r0_15, p0⟩] : List (View.Piece (Elt F) S1440x640 .f32)), y ∈ pc.1.set :=
  View.cover_of_tiled [⟨r0_15, p0⟩] S1440x640.size (by rfl) y

/-! ## The region's proof data -/

/-- On core c: the arrays as the region finds them; after the body at point t every input buffer still at its
    block, and the cost buffer at out0_4 of the four input blocks; the invariant that the scoped rest and the
    generator register stay untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The data's arrays are the region-entry contents (read off the definition; V stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input buffer holds its block when the body is called, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's triple -/

set_option maxHeartbeats 1000000 in
/-- The body on whole staging buffers, the four inputs at x0 … x3 and the cost buffer at anything, runs to a state
    with the inputs as they were and the cost buffer at out0_4 x0 x1 x2 x3: it loads the inputs through the
    rectangles above, reads the cost buffer once without using what it read, and stores one value over the whole
    cost block. -/
theorem sound_kernel (c : Dev nD) (E : Set ℕ) (i : grid0.Coords)
    (arg1 : Memref sig .tc .vmem S1440x512 .f32) (harg1 : arg1.IsWhole) (arg2 : Memref sig .tc .vmem S1440x4 .f32) (harg2 : arg2.IsWhole)
    (arg3 : Memref sig .tc .vmem S512x640 .bf16) (harg3 : arg3.IsWhole) (arg4 : Memref sig .tc .vmem S16x640 .f32) (harg4 : arg4.IsWhole)
    (arg5 : Memref sig .tc .vmem S1440x640 .f32) (harg5 : arg5.IsWhole)
    (x0 : Vec F S1440x512 .f32) (x1 : Vec F S1440x4 .f32) (x2 : Vec F S512x640 .bf16) (x3 : Vec F S16x640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body at a point of the grid -/

/-- What the pipeline hands the body at point t: the invariant, the core's debt, and each window's current
    staging buffer, whole, at what the data say it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body hands back: the same, each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at point t: the four input buffers hold their blocks, so sound_kernel runs it; what the cost buffer
    held is read and dropped; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets its obligation at every point of the grid. -/
theorem body_obligation (c : Dev nD) : BodyObligation (dats (F := F) m 0 c) (defs₀ (F := F)) Variants.none () Set.univ := fun t => by
  rw [bigSep_W0, bigSep_W0]
  exact sound_body m c t

/-! ## The run of @main and the frame -/

-- the launch theorem's implicit arguments are found by unifying its conclusion with the statement below, which
-- unfolds plain definitions inside a metavariable's type
set_option backward.isDefEq.respectTransparency.types false in
/-- From any memory with the semaphores at zero, every weakly fair execution of @main terminates without a fault,
    and ends with each window's array at what the data compute for it (an input array as the region found it;
    block t of the cost matrix at out0_4 of point t's input blocks) and every other unscoped buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of KernelIdeal at any float instance: @main terminates without a fault and its five argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Frm

end
-- ==== Proof.Spec.lean ====
/-
  The matching cost as ONE function of four matrices, entry by entry, on the extended reals.

  Both programs first bring their arguments to the same four matrices: X (14400 x 512: one row of class
  logits per query), P (14400 x 4: a predicted box per query as centre, centre, width, height), M (640 x 512:
  one gathered label-map row per target) and B (640 x 4: a target box per target). The cost of query r
  against target g is

      5 * (L1 distance of the boxes) + 2 * (focal class cost) + 2 * (minus the generalized IoU)

  where the focal class cost is the inner product over the 512 classes of pos - neg (the two focal terms of
  the sigmoid of the logit) with the target's label-map row divided by its sum. `costK` spells the entry the
  way the tiled kernel computes it, `costR` the way the array reference does; `Cert.Spec.costR_eq_costK` (Proof/SpecLaw.lean) proves the two
  equal when the entries of X, P and B are real numbers.
-/
import Idealize.ShloMosaic.PureOps.Ideal
import Idealize.ShloMosaic.Lib.ValueIdx

noncomputable section

namespace Cert.Spec

open Idealize.ShloMosaic Idealize.ShloMosaic.ValueIdx

abbrev SX : Shape := ⟨2, ![14400, 512]⟩
abbrev SP : Shape := ⟨2, ![14400, 4]⟩
abbrev SM : Shape := ⟨2, ![640, 512]⟩
abbrev SB : Shape := ⟨2, ![640, 4]⟩
abbrev SR : Shape := ⟨2, ![14400, 640]⟩

/-- The float literals of the two programs, by their words (never evaluated unless a law needs the value). -/
abbrev one : EReal := Ideal.ofBits .f32 0x3F800000#32
abbrev zero : EReal := Ideal.ofBits .f32 0x00000000#32
abbrev half : EReal := Ideal.ofBits .f32 0x3F000000#32
abbrev two : EReal := Ideal.ofBits .f32 0x40000000#32
abbrev five : EReal := Ideal.ofBits .f32 0x40A00000#32
abbrev c75 : EReal := Ideal.ofBits .f32 0x3F400000#32
abbrev c25 : EReal := Ideal.ofBits .f32 0x3E800000#32
abbrev eps : EReal := Ideal.ofBits .f32 0x322BCC77#32

variable (X : SX.Idx → EReal) (P : SP.Idx → EReal) (M : SM.Idx → EReal) (B : SB.Idx → EReal)

/-- The absolute value of an extended real as the two programs compute it. -/
def absE (x : EReal) : EReal := max x (-x)

/-- A target's label-map row divided by the row's sum (the sum started from the zero word). -/
def lmn (g : Fin 640) (k : Fin 512) : EReal :=
  Ideal.div (M (ix2 g k)) (zero + ∑ k' : Fin 512, M (ix2 g k'))

/-! ### The kernel's spelling -/

/-- The sigmoid of a logit. -/
def prob (r : Fin 14400) (k : Fin 512) : EReal := Ideal.logistic (X (ix2 r k))

/-- pos - neg of the focal cost, the squares by multiplication, the negations as 0 - x. -/
def diffK (r : Fin 14400) (k : Fin 512) : EReal :=
  let p := prob X r k
  let q := one - p
  (c25 * (q * q)) * (zero - Ideal.log (p + eps)) - (c75 * (p * p)) * (zero - Ideal.log (q + eps))

def classK (r : Fin 14400) (g : Fin 640) : EReal := ∑ k : Fin 512, diffK X r k * lmn M g k

def bboxK (r : Fin 14400) (g : Fin 640) : EReal :=
  ((absE (P (ix2 r 0) - B (ix2 g 0)) + absE (P (ix2 r 1) - B (ix2 g 1))) + absE (P (ix2 r 2) - B (ix2 g 2))) + absE (P (ix2 r 3) - B (ix2 g 3))

/-- The corners of a box given as centre, centre, width, height. -/
def lo (c w : EReal) : EReal := c - half * w
def hi (c w : EReal) : EReal := c + half * w

/-- Union of the two boxes' areas less the intersection, the areas as width times height. -/
def interOf (x0 y0 x1 y1 tx0 ty0 tx1 ty1 : EReal) : EReal :=
  max zero (min x1 tx1 - max x0 tx0) * max zero (min y1 ty1 - max y0 ty0)
def encOf (x0 y0 x1 y1 tx0 ty0 tx1 ty1 : EReal) : EReal :=
  max zero (max x1 tx1 - min x0 tx0) * max zero (max y1 ty1 - min y0 ty0)

def giouOf (a1 a2 inter enc : EReal) : EReal :=
  let union := (a1 + a2) - inter
  Ideal.div inter union - Ideal.div (enc - union) enc

def giouK (r : Fin 14400) (g : Fin 640) : EReal :=
  let cx := P (ix2 r 0); let cy := P (ix2 r 1); let w := P (ix2 r 2); let h := P (ix2 r 3)
  let tcx := B (ix2 g 0); let tcy := B (ix2 g 1); let tw := B (ix2 g 2); let th := B (ix2 g 3)
  giouOf (w * h) (tw * th)
    (interOf (lo cx w) (lo cy h) (hi cx w) (hi cy h) (lo tcx tw) (lo tcy th) (hi tcx tw) (hi tcy th))
    (encOf (lo cx w) (lo cy h) (hi cx w) (hi cy h) (lo tcx tw) (lo tcy th) (hi tcx tw) (hi tcy th))

/-- The kernel's entry. -/
def costK (j : SR.Idx) : EReal :=
  ((five * bboxK P B (j 0) (j 1)) + (two * classK X M (j 0) (j 1))) + (two * (zero - giouK P B (j 0) (j 1)))

/-! ### The reference's spelling -/

/-- pos - neg with the squares as powers with exponent the word of 2 and the negations as -x. -/
def diffR (r : Fin 14400) (k : Fin 512) : EReal :=
  let p := prob X r k
  (c25 * Ideal.pow (one - p) two) * (-(Ideal.log (p + eps))) - (c75 * Ideal.pow p two) * (-(Ideal.log ((one - p) + eps)))

def classR (r : Fin 14400) (g : Fin 640) : EReal := ∑ k : Fin 512, diffR X r k * lmn M g k

def bboxR (r : Fin 14400) (g : Fin 640) : EReal :=
  zero + ∑ a : Fin 4, absE (P (ix2 r a) - B (ix2 g a))

/-- The areas from the corners. -/
def giouR (r : Fin 14400) (g : Fin 640) : EReal :=
  let cx := P (ix2 r 0); let cy := P (ix2 r 1); let w := P (ix2 r 2); let h := P (ix2 r 3)
  let tcx := B (ix2 g 0); let tcy := B (ix2 g 1); let tw := B (ix2 g 2); let th := B (ix2 g 3)
  giouOf ((hi cx w - lo cx w) * (hi cy h - lo cy h)) ((hi tcx tw - lo tcx tw) * (hi tcy th - lo tcy th))
    (interOf (lo cx w) (lo cy h) (hi cx w) (hi cy h) (lo tcx tw) (lo tcy th) (hi tcx tw) (hi tcy th))
    (encOf (lo cx w) (lo cy h) (hi cx w) (hi cy h) (lo tcx tw) (lo tcy th) (hi tcx tw) (hi tcy th))

/-- The reference's entry. -/
def costR (j : SR.Idx) : EReal :=
  ((five * bboxR P B (j 0) (j 1)) + (two * classR X M (j 0) (j 1))) + (two * (-(giouR P B (j 0) (j 1))))

end Cert.Spec

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KPayload.lean ====
/-
  One output block of the kernel, entry by entry.

  At the ideal values the body's stored block is a function of what it loads: the whole logits block l0
  (1440 x 512), the whole normalized label-map matrix l25 (512 x 640, classes by targets), the four columns
  c0 … c3 of the predicted-box block (centre, centre, width, height), and nine rows a0 … a8 of the target
  table (centre, centre, width, height, the two low corners, the two high corners, the area). Entry (p, g) of
  the block is the matching cost of the block's query p against target g: five times the L1 box distance, plus
  twice the inner product over the classes of the focal difference with the target's column, plus twice the
  negated generalized IoU.
-/
import proofs.«123953_j11467562680409_2_alg».proof.Proof.Gen.KernelIdeal.Skeleton
import proofs.«123953_j11467562680409_2_alg».proof.Proof.Spec
import proofs.«123953_j11467562680409_2_alg».proof.Proof.LibMatmul
import proofs.«123953_j11467562680409_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx Cert.Spec

/-- The focal difference pos - neg for one logit x, with p the sigmoid of x and q = 1 - p. -/
def diffCore (x : EReal) : EReal :=
  (c25 * ((one - Ideal.logistic x) * (one - Ideal.logistic x))) * (zero - Ideal.log (Ideal.logistic x + eps))
    - (c75 * (Ideal.logistic x * Ideal.logistic x)) * (zero - Ideal.log ((one - Ideal.logistic x) + eps))

/-- The cost of one query against one target from the query's logits, the target's normalized label-map
    column, the query's box and the target's table entries. -/
def costCore (xrow lcol : Fin 512 → EReal) (cx cy w h tcx tcy tw th tx0 ty0 tx1 ty1 ta : EReal) : EReal :=
  ((five * (((absE (cx - tcx) + absE (cy - tcy)) + absE (w - tw)) + absE (h - th)))
      + (two * ∑ k : Fin 512, diffCore (xrow k) * lcol k))
    + (two * (zero - giouOf (w * h) ta
        (interOf (lo cx w) (lo cy h) (hi cx w) (hi cy h) tx0 ty0 tx1 ty1)
        (encOf (lo cx w) (lo cy h) (hi cx w) (hi cy h) tx0 ty0 tx1 ty1)))

/-- The stored block as a function of the body's loads. -/
def blockVal (l0 : Vec Ideal S1440x512 .f32) (l25 : Vec Ideal S512x640 .bf16) (c0 c1 c2 c3 : Vec Ideal S1440x1 .f32)
    (a0 a1 a2 a3 a4 a5 a6 a7 a8 : Vec Ideal S1x640 .f32) : FVec Ideal S1440x640 .f32 :=
  k0_pay1
    (k0_pay2 l0 l25)
    (k0_pay22 (k0_pay6 c3) (k0_pay13 a2) (k0_pay14 a3)
      (k0_pay20 (k0_pay3 c0) (k0_pay4 c1) a0 a1)
      (k0_pay21 (k0_pay5 c2)))
    (k0_pay23
      (k0_pay8 (k0_pay3 c0) (k0_pay7 c2))
      (k0_pay9 (k0_pay4 c1) (k0_pay6 c3))
      (k0_pay10 (k0_pay3 c0) (k0_pay5 c2))
      (k0_pay11 (k0_pay4 c1) (k0_pay6 c3))
      (k0_pay12 (k0_pay5 c2) (k0_pay6 c3))
      (k0_pay15 a4) (k0_pay16 a5) (k0_pay17 a6) (k0_pay18 a7) (k0_pay19 a8))
    (Scalar.ofBits .f32 0x40A00000#32)

theorem absf_at {s : Shape} (a : FVec Ideal s .f32) (i : s.Idx) : absf a i = absE (a i) := rfl
theorem logistic_at {s : Shape} (a : FVec Ideal s .f32) (i : s.Idx) : logistic a i = Ideal.logistic (a i) := rfl
theorem log_at {s : Shape} (a : FVec Ideal s .f32) (i : s.Idx) : log a i = Ideal.log (a i) := rfl

/-- The class term: the matrix product of the focal differences (rounded to bf16, which changes nothing at
    the ideal values) with the label-map matrix, at (p, g). -/
theorem pay2_at (l0 : Vec Ideal S1440x512 .f32) (l25 : Vec Ideal S512x640 .bf16) (p : Fin 1440) (g : Fin 640) :
    k0_pay2 l0 l25 (ix2 p g) = ∑ k : Fin 512, diffCore (l0 (ix2 p k)) * l25 (ix2 k g) := by
  unfold k0_pay2
  simp only [shapeCast_self]
  refine (congrFun (Cert.LibMatmul.matmul_zero_eq dot_S1440x512_S512x640_S1440x640_1_0_0_1_n_n rfl rfl rfl rfl rfl rfl none _ _) (ix2 p g)).trans ?_
  refine (Cert.LibMatmul.MM_apply _ _ p g).trans ?_
  rfl

theorem blockVal_at (l0 : Vec Ideal S1440x512 .f32) (l25 : Vec Ideal S512x640 .bf16) (c0 c1 c2 c3 : Vec Ideal S1440x1 .f32)
    (a0 a1 a2 a3 a4 a5 a6 a7 a8 : Vec Ideal S1x640 .f32) (p : Fin 1440) (g : Fin 640) :
    blockVal l0 l25 c0 c1 c2 c3 a0 a1 a2 a3 a4 a5 a6 a7 a8 (ix2 p g)
      = costCore (fun k => l0 (ix2 p k)) (fun k => l25 (ix2 k g))
          (c0 (ix2 p (0 : Fin 1))) (c1 (ix2 p (0 : Fin 1))) (c2 (ix2 p (0 : Fin 1))) (c3 (ix2 p (0 : Fin 1)))
          (a0 (ix2 (0 : Fin 1) g)) (a1 (ix2 (0 : Fin 1) g)) (a2 (ix2 (0 : Fin 1) g)) (a3 (ix2 (0 : Fin 1) g))
          (a4 (ix2 (0 : Fin 1) g)) (a5 (ix2 (0 : Fin 1) g)) (a6 (ix2 (0 : Fin 1) g)) (a7 (ix2 (0 : Fin 1) g))
          (a8 (ix2 (0 : Fin 1) g)) := by
  unfold blockVal k0_pay1 k0_pay22 k0_pay23 k0_pay20 k0_pay21 k0_pay8 k0_pay9 k0_pay10 k0_pay11 k0_pay12 k0_pay7
    k0_pay3 k0_pay4 k0_pay5 k0_pay6 k0_pay13 k0_pay14 k0_pay15 k0_pay16 k0_pay17 k0_pay18 k0_pay19
  simp only [shapeCast_self]
  simp only [addf_apply, subf_apply, mulf_apply, divf_apply, maximumf_apply, minimumf_apply, broadcast_apply, absf_at,
    Cert.LibRowOps.col_bcast_apply, broadcastTo_1b_ab_apply, pay2_at, Ideal.ofBits_def]
  rfl

/-- The whole 14400 x 640 result as a function of the four arrays the launch reads: the logits X, the predicted
    boxes P, the normalized label-map matrix L (classes by targets) and the target table A. -/
def kernelArr (X : Vec Ideal S14400x512 .f32) (P : Vec Ideal S14400x4 .f32) (L : Vec Ideal S512x640 .bf16)
    (A : Vec Ideal S16x640 .f32) : Vec Ideal S14400x640 .f32 := fun j =>
  costCore (fun k => X (ix2 (j 0) k)) (fun k => L (ix2 k (j 1)))
    (P (ix2 (j 0) (0 : Fin 4))) (P (ix2 (j 0) (1 : Fin 4))) (P (ix2 (j 0) (2 : Fin 4))) (P (ix2 (j 0) (3 : Fin 4)))
    (A (ix2 (0 : Fin 16) (j 1))) (A (ix2 (1 : Fin 16) (j 1))) (A (ix2 (2 : Fin 16) (j 1))) (A (ix2 (3 : Fin 16) (j 1)))
    (A (ix2 (4 : Fin 16) (j 1))) (A (ix2 (5 : Fin 16) (j 1))) (A (ix2 (6 : Fin 16) (j 1))) (A (ix2 (7 : Fin 16) (j 1)))
    (A (ix2 (8 : Fin 16) (j 1)))

end Cert.KernelIdeal.KVal

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.KHost.lean ====
/-
  The arrays the kernel's host code prepares before the launch, entry by entry.

  From the label maps and the class labels: the gathered rows M (640 x 512, kept as one array: which row a
  label picks is never opened), each row divided by its sum, transposed and rounded to bf16 (the identity
  at the ideal values): entry (k, g) of the matrix the kernel multiplies by is row g of M at k over the sum
  of row g. From the target boxes B (640 x 4): the sixteen-row table whose rows 0 … 8 are the centres, the
  widths and heights, the low corners centre - w/2, the high corners centre + w/2, and the area w * h.
-/
import proofs.«123953_j11467562680409_2_alg».proof.Proof.Gen.KernelIdeal
import proofs.«123953_j11467562680409_2_alg».proof.Proof.Spec
import proofs.«123953_j11467562680409_2_alg».proof.Proof.LibHostLayout
import proofs.«123953_j11467562680409_2_alg».proof.Proof.LibSliceSum
import proofs.«123953_j11467562680409_2_alg».proof.Proof.LibColumnCasts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx Cert.Spec

/-! ### The normalized label-map matrix -/

/-- The labels with the negative ones wrapped by 91, as the gather's start indices. -/
def startIdx (x4 : IVec S16x40 32) : IVec S16x40x1 32 :=
  broadcastInDim S16x40x1 ![0, 1] bcast_S16x40_S16x40x1_0_1
    (select (cmpi .slt x4 (broadcastInDim S16x40 ![] bcast_S_S16x40 (constantI S_ 32 0#32)))
      (addi x4 (broadcastInDim S16x40 ![] bcast_S_S16x40 (constantI S_ 32 91#32))) x4)

/-- The gathered label-map rows, one per target, as a 640 x 512 matrix. -/
def hostM (x2 : FVec Ideal S16x91x512 .f32) (x4 : IVec S16x40 32) : FVec Ideal S640x512 .f32 :=
  shapeCast S640x512 (Host.gather gather_S16x91x512_S16x40x1_S16x40x512_2_1_0_0_1_2_11512 x2 (startIdx x4))
    shapeCasts_S16x40x512_S640x512

/-- A 640 x 512 matrix with every row divided by its sum, transposed, rounded to bf16. -/
def normT (M : FVec Ideal S640x512 .f32) : FVec Ideal S512x640 .bf16 :=
  truncf (F := Ideal) .bf16
    (transpose S512x640 [1, 0]
      (Host.divf M
        (broadcastInDim S640x512 ![0, 1] bcast_S640x1_S640x512_0_1
          (broadcastInDim S640x1 ![0] bcast_S640_S640x1_0
            (Host.reduceAdd M (constant (F := Ideal) S_ .f32 0x00000000#32) reducesTo_S640x512_S640_d1 h_S_))))
      transposes_S640x512_S512x640_1_0)
    bitsLt_bf16_f32

/-- Entry (k, g) of the normalized transposed matrix: row g of M at k over the sum of row g. -/
theorem normT_at (M : FVec Ideal S640x512 .f32) (k : Fin 512) (g : Fin 640) :
    normT M (ix2 k g) = lmn M g k := by
  unfold normT lmn
  refine (truncf_apply _ bitsLt_bf16_f32 (ix2 k g)).trans ?_
  refine (transpose_ix2_apply _ transposes_S640x512_S512x640_1_0 k g).trans ?_
  show Ideal.div (M (ix2 g k)) _ = _
  refine congrArg (Ideal.div (M (ix2 g k))) ?_
  rw [Cert.LibHostLayout.colAll_eq, Cert.LibHostLayout.vecCol_eq]
  show Host.reduceAdd M (constant (F := Ideal) S_ .f32 0x00000000#32) reducesTo_S640x512_S640_d1 h_S_ (ix1 g) = _
  simp only [Host.reduceAdd, Ideal.hostReduceAdd_def]
  rw [Ideal.hostReduceAdd_single reducesTo_S640x512_S640_d1 (by decide)]
  refine congrArg (_ + ·) (Finset.sum_congr rfl fun k' _ => ?_)
  exact congrArg M (funext fun a => Fin.ext (by match a with | ⟨0, _⟩ => rfl | ⟨1, _⟩ => rfl))

/-! ### The target table -/

/-- The target boxes as a 640 x 4 matrix. -/
def hostB (x3 : FVec Ideal S16x40x4 .f32) : FVec Ideal S640x4 .f32 :=
  shapeCast S640x4 x3 shapeCasts_S16x40x4_S640x4

variable (B : FVec Ideal S640x4 .f32)

/-- The four columns of the target boxes, as vectors. -/
def col0 : FVec Ideal S640 .f32 := shapeCast S640 (extractStridedSlice S640x1 ![0, 0] B slices_S640x4_S640x1_0_0) shapeCasts_S640x1_S640
def col1 : FVec Ideal S640 .f32 := shapeCast S640 (extractStridedSlice S640x1 ![0, 1] B slices_S640x4_S640x1_0_1) shapeCasts_S640x1_S640
def col2 : FVec Ideal S640 .f32 := shapeCast S640 (extractStridedSlice S640x1 ![0, 2] B slices_S640x4_S640x1_0_2) shapeCasts_S640x1_S640
def col3 : FVec Ideal S640 .f32 := shapeCast S640 (extractStridedSlice S640x1 ![0, 3] B slices_S640x4_S640x1_0_3) shapeCasts_S640x1_S640

theorem col0_at (g : Fin 640) : col0 B (ix1 g) = B (ix2 g (0 : Fin 4)) :=
  (Cert.LibColumnCasts.cast_uncolumn _ shapeCasts_S640x1_S640 g).trans (Cert.LibSliceSum.colSlice_apply 0 (by omega) B slices_S640x4_S640x1_0_0 g)
theorem col1_at (g : Fin 640) : col1 B (ix1 g) = B (ix2 g (1 : Fin 4)) :=
  (Cert.LibColumnCasts.cast_uncolumn _ shapeCasts_S640x1_S640 g).trans (Cert.LibSliceSum.colSlice_apply 1 (by omega) B slices_S640x4_S640x1_0_1 g)
theorem col2_at (g : Fin 640) : col2 B (ix1 g) = B (ix2 g (2 : Fin 4)) :=
  (Cert.LibColumnCasts.cast_uncolumn _ shapeCasts_S640x1_S640 g).trans (Cert.LibSliceSum.colSlice_apply 2 (by omega) B slices_S640x4_S640x1_0_2 g)
theorem col3_at (g : Fin 640) : col3 B (ix1 g) = B (ix2 g (3 : Fin 4)) :=
  (Cert.LibColumnCasts.cast_uncolumn _ shapeCasts_S640x1_S640 g).trans (Cert.LibSliceSum.colSlice_apply 3 (by omega) B slices_S640x4_S640x1_0_3 g)

/-- One half, splat over the targets. -/
def halves : FVec Ideal S640 .f32 := broadcastInDim S640 ![] bcast_S_S640 (constant (F := Ideal) S_ .f32 0x3F000000#32)
theorem halves_at (i : S640.Idx) : halves i = half := by
  unfold halves; rw [Cert.LibHostLayout.splat_eq]; rfl
/-- Zero, splat over the targets. -/
def zeros : FVec Ideal S640 .f32 := broadcastInDim S640 ![] bcast_S_S640 (constant (F := Ideal) S_ .f32 0x00000000#32)

/-- A vector over the targets laid out as one row. -/
def asRow (v : FVec Ideal S640 .f32) : FVec Ideal S1x640 .f32 := broadcastInDim S1x640 ![1] bcast_S640_S1x640_1 v

theorem asRow_at (v : FVec Ideal S640 .f32) (g : Fin 640) : asRow v (ix2 (0 : Fin 1) g) = v (ix1 g) := by
  unfold asRow
  rw [Cert.LibHostLayout.vecRow_eq]

/-- The sixteen-row table: centres, sizes, low corners, high corners, area, and seven rows of zeros. -/
def auxTable : FVec Ideal S16x640 .f32 :=
  concatenate S16x640 0
    [⟨S1x640, asRow (col0 B)⟩, ⟨S1x640, asRow (col1 B)⟩, ⟨S1x640, asRow (col2 B)⟩, ⟨S1x640, asRow (col3 B)⟩,
     ⟨S1x640, asRow (subf (col0 B) (mulf halves (col2 B)))⟩, ⟨S1x640, asRow (subf (col1 B) (mulf halves (col3 B)))⟩,
     ⟨S1x640, asRow (addf (col0 B) (mulf halves (col2 B)))⟩, ⟨S1x640, asRow (addf (col1 B) (mulf halves (col3 B)))⟩,
     ⟨S1x640, asRow (mulf (col2 B) (col3 B))⟩,
     ⟨S1x640, asRow zeros⟩, ⟨S1x640, asRow zeros⟩, ⟨S1x640, asRow zeros⟩, ⟨S1x640, asRow zeros⟩,
     ⟨S1x640, asRow zeros⟩, ⟨S1x640, asRow zeros⟩, ⟨S1x640, asRow zeros⟩]
    concatenates_S1x640_S1x640_S1x640_S1x640_S1x640_S1x640_S1x640_S1x640_S1x640_S1x640_S1x640_S1x640_S1x640_S1x640_S1x640_S1x640_S16x640_d0

/-- Off the joined axis a one-row piece and the table share their coordinate. -/
theorem off_axis (a : Fin 16) (g : Fin 640) : ∀ b : Fin S1x640.rank, b.cast (rfl : S1x640.rank = S16x640.rank) ≠ (0 : Fin S16x640.rank) →
    ((ix2 (0 : Fin 1) g : S1x640.Idx) b).val = ((ix2 a g : S16x640.Idx) (b.cast rfl)).val := fun b =>
  match b with
  | ⟨0, _⟩ => fun hb => absurd rfl hb
  | ⟨1, _⟩ => fun _ => rfl

theorem auxTable_row0 (g : Fin 640) : auxTable B (ix2 (0 : Fin 16) g) = B (ix2 g (0 : Fin 4)) := by
  unfold auxTable
  refine ((concatenate_apply_piece 0 _ _ (ix2 (0 : Fin 16) g) 0 (by show 0 < 16; omega) S1x640 (asRow (col0 B)) rfl rfl 0 rfl
    (ix2 (0 : Fin 1) g) (off_axis 0 g) rfl).trans (asRow_at _ g)).trans ?_
  exact col0_at B g

theorem auxTable_row1 (g : Fin 640) : auxTable B (ix2 (1 : Fin 16) g) = B (ix2 g (1 : Fin 4)) := by
  unfold auxTable
  refine ((concatenate_apply_piece 0 _ _ (ix2 (1 : Fin 16) g) 1 (by show 1 < 16; omega) S1x640 (asRow (col1 B)) rfl rfl 1 rfl
    (ix2 (0 : Fin 1) g) (off_axis 1 g) rfl).trans (asRow_at _ g)).trans ?_
  exact col1_at B g

theorem auxTable_row2 (g : Fin 640) : auxTable B (ix2 (2 : Fin 16) g) = B (ix2 g (2 : Fin 4)) := by
  unfold auxTable
  refine ((concatenate_apply_piece 0 _ _ (ix2 (2 : Fin 16) g) 2 (by show 2 < 16; omega) S1x640 (asRow (col2 B)) rfl rfl 2 rfl
    (ix2 (0 : Fin 1) g) (off_axis 2 g) rfl).trans (asRow_at _ g)).trans ?_
  exact col2_at B g

theorem auxTable_row3 (g : Fin 640) : auxTable B (ix2 (3 : Fin 16) g) = B (ix2 g (3 : Fin 4)) := by
  unfold auxTable
  refine ((concatenate_apply_piece 0 _ _ (ix2 (3 : Fin 16) g) 3 (by show 3 < 16; omega) S1x640 (asRow (col3 B)) rfl rfl 3 rfl
    (ix2 (0 : Fin 1) g) (off_axis 3 g) rfl).trans (asRow_at _ g)).trans ?_
  exact col3_at B g

theorem auxTable_row4 (g : Fin 640) : auxTable B (ix2 (4 : Fin 16) g) = lo (B (ix2 g (0 : Fin 4))) (B (ix2 g (2 : Fin 4))) := by
  unfold auxTable
  refine ((concatenate_apply_piece 0 _ _ (ix2 (4 : Fin 16) g) 4 (by show 4 < 16; omega) S1x640 (asRow (subf (col0 B) (mulf halves (col2 B)))) rfl rfl 4 rfl
    (ix2 (0 : Fin 1) g) (off_axis 4 g) rfl).trans (asRow_at _ g)).trans ?_
  simp only [subf_apply, addf_apply, mulf_apply, halves_at, col0_at, col1_at, col2_at, col3_at]; rfl

theorem auxTable_row5 (g : Fin 640) : auxTable B (ix2 (5 : Fin 16) g) = lo (B (ix2 g (1 : Fin 4))) (B (ix2 g (3 : Fin 4))) := by
  unfold auxTable
  refine ((concatenate_apply_piece 0 _ _ (ix2 (5 : Fin 16) g) 5 (by show 5 < 16; omega) S1x640 (asRow (subf (col1 B) (mulf halves (col3 B)))) rfl rfl 5 rfl
    (ix2 (0 : Fin 1) g) (off_axis 5 g) rfl).trans (asRow_at _ g)).trans ?_
  simp only [subf_apply, addf_apply, mulf_apply, halves_at, col0_at, col1_at, col2_at, col3_at]; rfl

theorem auxTable_row6 (g : Fin 640) : auxTable B (ix2 (6 : Fin 16) g) = hi (B (ix2 g (0 : Fin 4))) (B (ix2 g (2 : Fin 4))) := by
  unfold auxTable
  refine ((concatenate_apply_piece 0 _ _ (ix2 (6 : Fin 16) g) 6 (by show 6 < 16; omega) S1x640 (asRow (addf (col0 B) (mulf halves (col2 B)))) rfl rfl 6 rfl
    (ix2 (0 : Fin 1) g) (off_axis 6 g) rfl).trans (asRow_at _ g)).trans ?_
  simp only [subf_apply, addf_apply, mulf_apply, halves_at, col0_at, col1_at, col2_at, col3_at]; rfl

theorem auxTable_row7 (g : Fin 640) : auxTable B (ix2 (7 : Fin 16) g) = hi (B (ix2 g (1 : Fin 4))) (B (ix2 g (3 : Fin 4))) := by
  unfold auxTable
  refine ((concatenate_apply_piece 0 _ _ (ix2 (7 : Fin 16) g) 7 (by show 7 < 16; omega) S1x640 (asRow (addf (col1 B) (mulf halves (col3 B)))) rfl rfl 7 rfl
    (ix2 (0 : Fin 1) g) (off_axis 7 g) rfl).trans (asRow_at _ g)).trans ?_
  simp only [subf_apply, addf_apply, mulf_apply, halves_at, col0_at, col1_at, col2_at, col3_at]; rfl

theorem auxTable_row8 (g : Fin 640) : auxTable B (ix2 (8 : Fin 16) g) = B (ix2 g (2 : Fin 4)) * B (ix2 g (3 : Fin 4)) := by
  unfold auxTable
  refine ((concatenate_apply_piece 0 _ _ (ix2 (8 : Fin 16) g) 8 (by show 8 < 16; omega) S1x640 (asRow (mulf (col2 B) (col3 B))) rfl rfl 8 rfl
    (ix2 (0 : Fin 1) g) (off_axis 8 g) rfl).trans (asRow_at _ g)).trans ?_
  simp only [mulf_apply, col2_at, col3_at]

end Cert.KernelIdeal.KVal

end
-- ==== Proof.KArr.lean ====
/-
  The kernel's whole result is the specification's cost: with the matrix the kernel multiplies by the
  normalized transpose of M and the table built from B, entry (r, g) of the launch's result is the cost of
  query r against target g in the kernel's spelling.
-/
import proofs.«123953_j11467562680409_2_alg».proof.Proof.KPayload
import proofs.«123953_j11467562680409_2_alg».proof.Proof.KHost

noncomputable section

namespace Cert.KernelIdeal.KVal

open Cert.KernelIdeal Cert.KernelIdeal.Gen Idealize.ShloMosaic Idealize.ShloMosaic.ValueIdx Cert.Spec

theorem kernelArr_at (X : FVec Ideal S14400x512 .f32) (P : FVec Ideal S14400x4 .f32) (M : FVec Ideal S640x512 .f32)
    (B : FVec Ideal S640x4 .f32) (r : Fin 14400) (g : Fin 640) :
    kernelArr X P (normT M) (auxTable B) (ix2 r g) = costK X P M B (ix2 r g) := by
  show costCore (fun k => X (ix2 r k)) (fun k => normT M (ix2 k g))
    (P (ix2 r (0 : Fin 4))) (P (ix2 r (1 : Fin 4))) (P (ix2 r (2 : Fin 4))) (P (ix2 r (3 : Fin 4)))
    (auxTable B (ix2 (0 : Fin 16) g)) (auxTable B (ix2 (1 : Fin 16) g)) (auxTable B (ix2 (2 : Fin 16) g))
    (auxTable B (ix2 (3 : Fin 16) g)) (auxTable B (ix2 (4 : Fin 16) g)) (auxTable B (ix2 (5 : Fin 16) g))
    (auxTable B (ix2 (6 : Fin 16) g)) (auxTable B (ix2 (7 : Fin 16) g)) (auxTable B (ix2 (8 : Fin 16) g)) = _
  simp only [normT_at, auxTable_row0, auxTable_row1, auxTable_row2, auxTable_row3, auxTable_row4, auxTable_row5,
    auxTable_row6, auxTable_row7, auxTable_row8]
  rfl

theorem kernelArr_eq (X : FVec Ideal S14400x512 .f32) (P : FVec Ideal S14400x4 .f32) (M : FVec Ideal S640x512 .f32)
    (B : FVec Ideal S640x4 .f32) : kernelArr X P (normT M) (auxTable B) = costK X P M B := by
  funext j
  obtain ⟨r, g, rfl⟩ : ∃ (r : Fin 14400) (g : Fin 640), j = ix2 r g := ⟨j 0, j 1, eq_ix2 j⟩
  exact kernelArr_at X P M B r g

end Cert.KernelIdeal.KVal

end
-- ==== Proof.KBlocks.lean ====
/-
  From the blocks the kernel writes to the whole cost matrix.

  Point t of the grid of ten stores one block: rows 1440 t … 1440 t + 1439 of the 14400 x 640 cost matrix. The
  stored block is a function of the four input blocks of the point, entry by entry the cost of one query against one
  target; the input blocks are rows 1440 t … of the logits and of the predicted boxes and, at every point, the whole
  label-map matrix and the whole target table. So the block stored at t is block t of ONE function of the four
  arrays the region finds, the ten blocks tile the matrix, and the matrix ends holding that function.
-/
import proofs.«123953_j11467562680409_2_alg».proof.Proof.KernelIdealFrame
import proofs.«123953_j11467562680409_2_alg».proof.Proof.KPayload
import Idealize.ShloMosaic.Lib.Pipeline.Value
import Idealize.ShloMosaic.Lib.ValueIdx

noncomputable section

namespace Cert.KernelIdeal.KVal

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

/-! ## One entry of a stored block from the four input blocks -/

theorem zero_offsets : (![0, 0] : Fin 2 → Nat) = fun _ => 0 := funext fun a => by fin_cases a <;> rfl

/-- A load through a unit-stride rectangle, at an index: the operand at the rectangle's offsets plus the index. -/
theorem ld_unit_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  show X ((Rect.unit off size inb).idx x) = X k
  congr 1
  funext a
  apply Fin.ext
  rw [LoadRect.idx_apply, hk a]
  simp only [Rect.off_unit, Rect.stride_unit, Nat.one_mul]

/-- Entry (p, g) of the block the body stores, from the four input blocks: the cost of the block's query p against
    target g. -/
theorem out_at (x0 : Vec Ideal S1440x512 .f32) (x1 : Vec Ideal S1440x4 .f32) (x2 : Vec Ideal S512x640 .bf16)
    (x3 : Vec Ideal S16x640 .f32) (p : Fin 1440) (g : Fin 640) :
    out0_4 x0 x1 x2 x3 (ix2 p g)
      = costCore (fun k => x0 (ix2 p k)) (fun k => x2 (ix2 k g))
          (x1 (ix2 p (0 : Fin 4))) (x1 (ix2 p (1 : Fin 4))) (x1 (ix2 p (2 : Fin 4))) (x1 (ix2 p (3 : Fin 4)))
          (x3 (ix2 (0 : Fin 16) g)) (x3 (ix2 (1 : Fin 16) g)) (x3 (ix2 (2 : Fin 16) g)) (x3 (ix2 (3 : Fin 16) g))
          (x3 (ix2 (4 : Fin 16) g)) (x3 (ix2 (5 : Fin 16) g)) (x3 (ix2 (6 : Fin 16) g)) (x3 (ix2 (7 : Fin 16) g))
          (x3 (ix2 (8 : Fin 16) g)) := by
  unfold out0_4
  rw [View.canon_unit_zero zero_offsets]
  refine (blockVal_at (View.ld x0 r0_0) (View.ld x2 r0_1) (View.ld x1 r0_2) (View.ld x1 r0_3) (View.ld x1 r0_4)
    (View.ld x1 r0_5) (View.ld x3 r0_6) (View.ld x3 r0_7) (View.ld x3 r0_8) (View.ld x3 r0_9) (View.ld x3 r0_10)
    (View.ld x3 r0_11) (View.ld x3 r0_12) (View.ld x3 r0_13) (View.ld x3 r0_14) p g).trans ?_
  rw [View.ld_unit_zero (S := S1440x512) zero_offsets, View.ld_unit_zero (S := S512x640) zero_offsets]
  have c0 : View.ld x1 r0_2 (ix2 p (0 : Fin 1)) = x1 (ix2 p (0 : Fin 4)) :=
    ld_unit_at x1 _ _ _ _ _ (fun a => by fin_cases a <;> simp)
  have c1 : View.ld x1 r0_3 (ix2 p (0 : Fin 1)) = x1 (ix2 p (1 : Fin 4)) :=
    ld_unit_at x1 _ _ _ _ _ (fun a => by fin_cases a <;> simp)
  have c2 : View.ld x1 r0_4 (ix2 p (0 : Fin 1)) = x1 (ix2 p (2 : Fin 4)) :=
    ld_unit_at x1 _ _ _ _ _ (fun a => by fin_cases a <;> simp)
  have c3 : View.ld x1 r0_5 (ix2 p (0 : Fin 1)) = x1 (ix2 p (3 : Fin 4)) :=
    ld_unit_at x1 _ _ _ _ _ (fun a => by fin_cases a <;> simp)
  have a0 : View.ld x3 r0_6 (ix2 (0 : Fin 1) g) = x3 (ix2 (0 : Fin 16) g) :=
    ld_unit_at x3 _ _ _ _ _ (fun a => by fin_cases a <;> simp)
  have a1 : View.ld x3 r0_7 (ix2 (0 : Fin 1) g) = x3 (ix2 (1 : Fin 16) g) :=
    ld_unit_at x3 _ _ _ _ _ (fun a => by fin_cases a <;> simp)
  have a2 : View.ld x3 r0_8 (ix2 (0 : Fin 1) g) = x3 (ix2 (2 : Fin 16) g) :=
    ld_unit_at x3 _ _ _ _ _ (fun a => by fin_cases a <;> simp)
  have a3 : View.ld x3 r0_9 (ix2 (0 : Fin 1) g) = x3 (ix2 (3 : Fin 16) g) :=
    ld_unit_at x3 _ _ _ _ _ (fun a => by fin_cases a <;> simp)
  have a4 : View.ld x3 r0_10 (ix2 (0 : Fin 1) g) = x3 (ix2 (4 : Fin 16) g) :=
    ld_unit_at x3 _ _ _ _ _ (fun a => by fin_cases a <;> simp)
  have a5 : View.ld x3 r0_11 (ix2 (0 : Fin 1) g) = x3 (ix2 (5 : Fin 16) g) :=
    ld_unit_at x3 _ _ _ _ _ (fun a => by fin_cases a <;> simp)
  have a6 : View.ld x3 r0_12 (ix2 (0 : Fin 1) g) = x3 (ix2 (6 : Fin 16) g) :=
    ld_unit_at x3 _ _ _ _ _ (fun a => by fin_cases a <;> simp)
  have a7 : View.ld x3 r0_13 (ix2 (0 : Fin 1) g) = x3 (ix2 (7 : Fin 16) g) :=
    ld_unit_at x3 _ _ _ _ _ (fun a => by fin_cases a <;> simp)
  have a8 : View.ld x3 r0_14 (ix2 (0 : Fin 1) g) = x3 (ix2 (8 : Fin 16) g) :=
    ld_unit_at x3 _ _ _ _ _ (fun a => by fin_cases a <;> simp)
  rw [c0, c1, c2, c3, a0, a1, a2, a3, a4, a5, a6, a7, a8]

/-- The same entry as an entry of the whole-array function, when the input blocks read the arrays at the entry's
    row r (logits, boxes) and column g (label-map matrix, target table). -/
theorem point_eq (A0 : Vec Ideal S14400x512 .f32) (A1 : Vec Ideal S14400x4 .f32) (A2 : Vec Ideal S512x640 .bf16)
    (A3 : Vec Ideal S16x640 .f32) (x0 : Vec Ideal S1440x512 .f32) (x1 : Vec Ideal S1440x4 .f32)
    (x2 : Vec Ideal S512x640 .bf16) (x3 : Vec Ideal S16x640 .f32) (p : Fin 1440) (g : Fin 640) (r : Fin 14400)
    (h0 : ∀ k : Fin 512, x0 (ix2 p k) = A0 (ix2 r k))
    (h1 : ∀ a : Fin 4, x1 (ix2 p a) = A1 (ix2 r a))
    (h2 : ∀ k : Fin 512, x2 (ix2 k g) = A2 (ix2 k g))
    (h3 : ∀ a : Fin 16, x3 (ix2 a g) = A3 (ix2 a g)) :
    out0_4 x0 x1 x2 x3 (ix2 p g) = kernelArr A0 A1 A2 A3 (ix2 r g) := by
  rw [out_at]
  unfold kernelArr
  simp only [h0, h1, h2, h3]

/-! ## The index maps over the grid -/

/-- The printed index maps, decided over the ten points: the logits, boxes and cost windows are at row block t,
    column block 0; the label-map matrix and the target table are at block (0, 0) at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks as rows of the arrays -/

variable (m : (ℓ : Loc nD τ sig) → Buf (Elt Ideal) ℓ)

/-- The logits block of point t holds rows 1440 t … of the logits. -/
theorem logits_blk_at (c : Dev nD) (t : Fin cfg0.N) (p : Fin 1440) (k : Fin 512) (r : Fin 14400)
    (hr : r.val = t.val * 1440 + p.val) :
    (iblk m c 0 t : Vec Ideal S1440x512 .f32) (ix2 p k) = (V m c main_v54 : Vec Ideal S14400x512 .f32) (ix2 r k) := by
  obtain ⟨e00, e01, -⟩ := index_facts t
  show V m c main_v54 (((cfg0.win 0).blk t).view.emb (ix2 p k)) = V m c main_v54 (ix2 r k)
  refine congrArg _ (funext fun a => Fin.ext ?_)
  match a with
  | ⟨0, _⟩ => show win0_0.index t (0 : Fin 2) * 1440 + 1 * p.val = r.val; omega
  | ⟨1, _⟩ => show win0_0.index t (1 : Fin 2) * 512 + 1 * k.val = k.val; omega

/-- The boxes block of point t holds rows 1440 t … of the predicted boxes. -/
theorem boxes_blk_at (c : Dev nD) (t : Fin cfg0.N) (p : Fin 1440) (b : Fin 4) (r : Fin 14400)
    (hr : r.val = t.val * 1440 + p.val) :
    (iblk m c 1 t : Vec Ideal S1440x4 .f32) (ix2 p b) = (V m c main_v55 : Vec Ideal S14400x4 .f32) (ix2 r b) := by
  obtain ⟨-, -, e10, e11, -⟩ := index_facts t
  show V m c main_v55 (((cfg0.win 1).blk t).view.emb (ix2 p b)) = V m c main_v55 (ix2 r b)
  refine congrArg _ (funext fun a => Fin.ext ?_)
  match a with
  | ⟨0, _⟩ => show win0_1.index t (0 : Fin 2) * 1440 + 1 * p.val = r.val; omega
  | ⟨1, _⟩ => show win0_1.index t (1 : Fin 2) * 4 + 1 * b.val = b.val; omega

/-- The label-map window holds the whole matrix at every point. -/
theorem labels_blk (c : Dev nD) (t : Fin cfg0.N) (k : Fin 512) (g : Fin 640) :
    (iblk m c 2 t : Vec Ideal S512x640 .bf16) (ix2 k g) = (V m c main_v13 : Vec Ideal S512x640 .bf16) (ix2 k g) := by
  obtain ⟨-, -, -, -, e20, e21, -⟩ := index_facts t
  show V m c main_v13 (((cfg0.win 2).blk t).view.emb (ix2 k g)) = V m c main_v13 (ix2 k g)
  refine congrArg _ (funext fun a => Fin.ext ?_)
  match a with
  | ⟨0, _⟩ => show win0_2.index t (0 : Fin 2) * 512 + 1 * k.val = k.val; omega
  | ⟨1, _⟩ => show win0_2.index t (1 : Fin 2) * 640 + 1 * g.val = g.val; omega

/-- The target-table window holds the whole table at every point. -/
theorem table_blk (c : Dev nD) (t : Fin cfg0.N) (b : Fin 16) (g : Fin 640) :
    (iblk m c 3 t : Vec Ideal S16x640 .f32) (ix2 b g) = (V m c main_v53 : Vec Ideal S16x640 .f32) (ix2 b g) := by
  obtain ⟨-, -, -, -, -, -, e30, e31, -⟩ := index_facts t
  show V m c main_v53 (((cfg0.win 3).blk t).view.emb (ix2 b g)) = V m c main_v53 (ix2 b g)
  refine congrArg _ (funext fun a => Fin.ext ?_)
  match a with
  | ⟨0, _⟩ => show win0_3.index t (0 : Fin 2) * 16 + 1 * b.val = b.val; omega
  | ⟨1, _⟩ => show win0_3.index t (1 : Fin 2) * 640 + 1 * g.val = g.val; omega

/-- Where entry (p, g) of point t's cost block sits in the matrix: row 1440 t + p, column g. -/
theorem cost_blk_emb (t : Fin cfg0.N) (p : Fin 1440) (g : Fin 640) (r : Fin 14400) (hr : r.val = t.val * 1440 + p.val) :
    (((cfg0.win 4).blk t).view.emb (ix2 p g) : S14400x640.Idx) = ix2 r g := by
  obtain ⟨-, -, -, -, -, -, -, -, e40, e41⟩ := index_facts t
  refine funext fun a => Fin.ext ?_
  match a with
  | ⟨0, _⟩ => show win0_4.index t (0 : Fin 2) * 1440 + 1 * p.val = r.val; omega
  | ⟨1, _⟩ => show win0_4.index t (1 : Fin 2) * 640 + 1 * g.val = g.val; omega

/-! ## What a point writes back, and the whole matrix -/

/-- What point t writes back is block t of the whole-array function of the four arrays the region finds. -/
theorem flushed_eq (c : Dev nD) (t : Fin cfg0.N) :
    (dats m 0 c).flushed 4 t = ((cfg0.win 4).blk t).view.read (Elt Ideal)
      (kernelArr (V m c main_v54) (V m c main_v55) (V m c main_v13) (V m c main_v53)) := by
  show (cfg0.win 4).cut (grid0.coords t) ((dats m 0 c).after 4 t) = _
  rw [after0_4]
  have hN : cfg0.N = 10 := N_0
  refine funext fun (j : S1440x640.Idx) => ?_
  obtain ⟨p, g, rfl⟩ : ∃ p g, j = ix2 p g := ⟨j 0, j 1, eq_ix2 j⟩
  obtain ⟨r, hr⟩ : ∃ r : Fin 14400, r.val = t.val * 1440 + p.val :=
    ⟨⟨t.val * 1440 + p.val, by have := t.isLt; have := p.isLt; omega⟩, rfl⟩
  show out0_4 (iblk m c 0 t) (iblk m c 1 t) (iblk m c 2 t) (iblk m c 3 t) (ix2 p g)
    = kernelArr (V m c main_v54) (V m c main_v55) (V m c main_v13) (V m c main_v53) (((cfg0.win 4).blk t).view.emb (ix2 p g))
  refine Eq.trans ?_ (congrArg (kernelArr (V m c main_v54) (V m c main_v55) (V m c main_v13) (V m c main_v53))
    (cost_blk_emb t p g r hr).symm)
  exact point_eq (V m c main_v54) (V m c main_v55) (V m c main_v13) (V m c main_v53)
    (iblk m c 0 t) (iblk m c 1 t) (iblk m c 2 t) (iblk m c 3 t) p g r
    (fun k => logits_blk_at m c t p k r hr) (fun b => boxes_blk_at m c t p b r hr)
    (fun k => labels_blk m c t k g) (fun b => table_blk m c t b g)

/-- An index of the cost matrix is in point t's block iff each coordinate is in the block's range on its axis. -/
theorem mem_blk (t : Fin cfg0.N) (i : S14400x640.Idx) :
    i ∈ ((cfg0.win 4).blk t).view.set ↔ ∀ a : Fin 2, win0_4.index t a * S1440x640.size a ≤ (i a).val
      ∧ (i a).val < win0_4.index t a * S1440x640.size a + S1440x640.size a := by
  show i ∈ ((View.whole main_v56).slice (win0_4.rect t)).set ↔ _
  rw [View.set_slice_whole, Rect.mem_set_unit]
  exact Iff.rfl

/-- The ten blocks tile the matrix: row r is in the block of point r / 1440. -/
theorem cover (i : S14400x640.Idx) :
    ∃ t : Fin cfg0.N, (cfg0.win 4).flush t = true ∧ i ∈ ((cfg0.win 4).blk t).view.set := by
  have hi0 : (i 0).val < 14400 := (i 0).isLt
  have hi1 : (i 1).val < 640 := (i 1).isLt
  have hN : cfg0.N = 10 := N_0
  obtain ⟨t, ht⟩ : ∃ t : Fin cfg0.N, t.val = (i 0).val / 1440 := ⟨⟨(i 0).val / 1440, by rw [hN]; omega⟩, rfl⟩
  obtain ⟨-, -, -, -, -, -, -, -, e40, e41⟩ := index_facts t
  refine ⟨t, flush0_4 t, ?_⟩
  rw [mem_blk]
  intro a
  match a with
  | ⟨0, _⟩ => show win0_4.index t (0 : Fin 2) * 1440 ≤ (i 0).val ∧ (i 0).val < win0_4.index t (0 : Fin 2) * 1440 + 1440; omega
  | ⟨1, _⟩ => show win0_4.index t (1 : Fin 2) * 640 ≤ (i 1).val ∧ (i 1).val < win0_4.index t (1 : Fin 2) * 640 + 640; omega

/-- The cost matrix after the region: the whole-array function of the four arrays the region finds. -/
theorem final_out (c : Dev nD) :
    (dats m 0 c).arrAt 4 cfg0.N = kernelArr (V m c main_v54) (V m c main_v55) (V m c main_v13) (V m c main_v53) :=
  (dats m 0 c).arrAt_eq_of_cover 4 (kernelArr (V m c main_v54) (V m c main_v55) (V m c main_v13) (V m c main_v53))
    (fun t _ => flushed_eq m c t) cover

end Cert.KernelIdeal.KVal

end
-- ==== Proof.KHostArrays.lean ====
/- What the region of KernelIdeal finds in the four arrays it reads, and what @main leaves in its result.

   Before the region the host code fills the four arrays the region's input windows sit on: %54 and %55 are the
   logits and the boxes with their two leading axes merged; %13 is the gathered label-map rows, each divided by its
   sum, transposed and rounded to bf16; %53 is the sixteen-row table built from the target boxes. Each is stated
   here as one whole-array term of the argument arrays. After the region the one remaining host operation splits
   the leading axis of the cost matrix %56 again, so the result %57 is that reshape of what the region left in %56;
   with the argument arrays unchanged this is the whole of what a run of @main leaves. -/
import proofs.«123953_j11467562680409_2_alg».proof.Proof.KernelIdealFrame
import proofs.«123953_j11467562680409_2_alg».proof.Proof.KHost
import Idealize.ShloMosaic.Lib.StableHlo.Run
import Idealize.ShloMosaic.PureOps.Ideal

noncomputable section

namespace Cert.KernelIdeal.KVal

open Cert.KernelIdeal Cert.KernelIdeal.Gen
open Idealize.ShloMosaic Idealize.ShloMosaic.TcCoe
open Idealize.SL Idealize.SL.Sem
open Idealize.ShloMosaic.Rounds
open Idealize.ShloMosaic.Pipeline (Dat)

variable (m : (ℓ : Loc nD τ sig) → Buf (Elt Ideal) ℓ) (ρ : Dev nD → PrngReg)

/-! ## The arrays the region reads -/

set_option maxHeartbeats 1000000 in
/-- The region finds in %54 the logits argument with its two leading axes merged: [16, 900, 512] read as
    [14400, 512]. Of the sixty-four host operations only the reshape of %arg0 writes %54. -/
theorem hX (c : Dev nD) : (Frm.V m c main_v54 : S14400x512.Idx → EReal)
    = shapeCast S14400x512 (m ((c : Thread nD τ).loc main_arg0)) shapeCasts_S16x900x512_S14400x512 := by
  show StableHlo.after hostOps0 (fun b => m (c, b)) (Proc.devRef .tc main_v54) = _
  after_results_simp
  rfl

set_option maxHeartbeats 1000000 in
/-- The region finds in %55 the boxes argument with its two leading axes merged: [16, 900, 4] read as [14400, 4]. -/
theorem hP (c : Dev nD) : (Frm.V m c main_v55 : S14400x4.Idx → EReal)
    = shapeCast S14400x4 (m ((c : Thread nD τ).loc main_arg1)) shapeCasts_S16x900x4_S14400x4 := by
  show StableHlo.after hostOps0 (fun b => m (c, b)) (Proc.devRef .tc main_v55) = _
  after_results_simp
  rfl

set_option maxHeartbeats 1000000 in
/-- The region finds in %13 the normalized class matrix: the label-map rows the class labels pick (negative labels
    wrapped by 91), as a 640 x 512 matrix, each row divided by its sum, transposed, rounded to bf16. The operations
    that write %c … %13 compose to exactly that term of %arg2 and %arg4. -/
theorem hL (c : Dev nD) : (Frm.V m c main_v13 : S512x640.Idx → EReal)
    = normT (hostM (m ((c : Thread nD τ).loc main_arg2)) (m ((c : Thread nD τ).loc main_arg4))) := by
  show StableHlo.after hostOps0 (fun b => m (c, b)) (Proc.devRef .tc main_v13) = _
  after_results_simp
  rfl

set_option maxHeartbeats 2000000 in
/-- The region finds in %53 the sixteen-row table of the target boxes: the concatenation, along the rows, of the
    sixteen one-row arrays %37 … %52, each of which the host code computes from the four columns of the target
    boxes (the centres, the sizes, the low and high corners, the area, and seven rows of zeros). The concatenation
    reads its sixteen operands as they stand after the operations before it; each is then the composed term of
    the operations that wrote it, which is the table's definition row by row. -/
theorem hA (c : Dev nD) : (Frm.V m c main_v53 : S16x640.Idx → EReal)
    = auxTable (hostB (m ((c : Thread nD τ).loc main_arg3))) := by
  show StableHlo.after hostOps0 (fun b => m (c, b)) (Proc.devRef .tc main_v53) = _
  after_results_simp
  dsimp only [Matrix.cons_val]
  rfl

/-! ## The result of @main -/

/-- What the closing reshape leaves in the result %57: the cost matrix %56 as the region left it — the last
    array of the pipeline, at what the proof data compute for it after all ten points — read as [16, 900, 640]. -/
theorem tail_out (c : Dev nD) : Pipeline.afterTail₀ cfgs (Frm.dats m) 0 (Frm.V0 m) [hostOps1] c main_v57
    = shapeCast S16x900x640 ((Frm.dats m 0 c).arrAt 4 cfg0.N) shapeCasts_S14400x640_S16x900x640 := by
  unfold Pipeline.afterTail₀
  show StableHlo.after hostOps1 _ (Proc.devRef .tc main_v57) = _
  after_results
  exact congrArg (fun X => shapeCast S16x900x640 X shapeCasts_S14400x640_S16x900x640)
    (Pipeline.withArrays_arr spec0 launch0.win.arr_inj c (Frm.V0 m c) (fun w => (Frm.dats m 0 c).arrAt w cfg0.N) 4)

/-- Every weakly fair execution of KernelIdeal's @main from a memory with the semaphores at zero
    terminates without a fault, with the result %57 at the reshaped cost matrix and the five argument arrays as
    launched: the result and the arguments are unscoped buffers that are no array of the pipeline, so the run's
    post gives each as the closing reshape leaves it. -/
theorem run_value : θ_run defs (onTc (τ := τ) (main (F := Ideal))) ⟨m, fun _ => 0, ρ⟩ (fun r => ∀ c : Dev nD,
      r.2.mem ((c.tc : Thread nD τ).loc main_v57)
        = shapeCast S16x900x640 ((Frm.dats m 0 c).arrAt 4 cfg0.N) shapeCasts_S14400x640_S16x900x640
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v57 (Pipeline.mem_restRefs_of main_v57 (by decide) (by decide))).trans (tail_out m c),
     ((h c).2 main_arg0 (Pipeline.mem_restRefs_of main_arg0 (by decide) (by decide))).trans (Frm.W_main_arg0 m (Frm.dats m) c),
     ((h c).2 main_arg1 (Pipeline.mem_restRefs_of main_arg1 (by decide) (by decide))).trans (Frm.W_main_arg1 m (Frm.dats m) c),
     ((h c).2 main_arg2 (Pipeline.mem_restRefs_of main_arg2 (by decide) (by decide))).trans (Frm.W_main_arg2 m (Frm.dats m) c),
     ((h c).2 main_arg3 (Pipeline.mem_restRefs_of main_arg3 (by decide) (by decide))).trans (Frm.W_main_arg3 m (Frm.dats m) c),
     ((h c).2 main_arg4 (Pipeline.mem_restRefs_of main_arg4 (by decide) (by decide))).trans (Frm.W_main_arg4 m (Frm.dats m) c)⟩)
    (Frm.run_main m ρ)

end Cert.KernelIdeal.KVal

end
-- ==== Proof.RefBase.lean ====
/-
  The four matrices the reference computes its cost from, as functions of its argument arrays, and the
  small steps that prove an equation between two indices coordinate by coordinate.

  X is argument 0 read as 14400 rows of 512 logits, P argument 1 read as 14400 boxes, B argument 3 read as 640
  boxes, and M the 640 label-map rows the reference gathers (one per target) from argument 2 by the labels in
  argument 4. The gathered array is kept as one whole term: nothing below reads it through the gather.
-/
import proofs.«123953_j11467562680409_2_alg».proof.Proof.Gen.ReferenceIdeal.Read
import proofs.«123953_j11467562680409_2_alg».proof.Proof.Spec

import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Spec

/-- An equation between two indices of rank one, two or three: coordinate by coordinate, each coordinate
    either by computation, or a quotient by one, or linear arithmetic. -/
macro "idx_coord" : tactic =>
  `(tactic| first | rfl | exact Nat.div_one _ | (dsimp only; omega))
macro "idx1" : tactic =>
  `(tactic| exact funext fun a => Fin.ext (by match a with | ⟨0, _⟩ => idx_coord))
macro "idx2" : tactic =>
  `(tactic| exact funext fun a => Fin.ext (by match a with | ⟨0, _⟩ => idx_coord | ⟨1, _⟩ => idx_coord))
macro "idx3" : tactic =>
  `(tactic| exact funext fun a => Fin.ext (by match a with | ⟨0, _⟩ => idx_coord | ⟨1, _⟩ => idx_coord | ⟨2, _⟩ => idx_coord))

variable (x0 : (⟨S16x900x512, .f32⟩ : BufTy).Contents (Elt Ideal)) (x1 : (⟨S16x900x4, .f32⟩ : BufTy).Contents (Elt Ideal))
  (x2 : (⟨S16x91x512, .f32⟩ : BufTy).Contents (Elt Ideal)) (x3 : (⟨S16x40x4, .f32⟩ : BufTy).Contents (Elt Ideal))
  (x4 : (⟨S16x40, .i32⟩ : BufTy).Contents (Elt Ideal))

/-- The logits, one row per query. -/
def stageX : Cert.Spec.SX.Idx → EReal := val_main_v0 (F := Ideal) x0
/-- The predicted boxes, one row per query. -/
def stageP : Cert.Spec.SP.Idx → EReal := val_main_v7 (F := Ideal) x1
/-- The gathered label-map rows, one row per target. -/
def stageM : Cert.Spec.SM.Idx → EReal := val_main_v15 (F := Ideal) x2 x4
/-- The target boxes, one row per target. -/
def stageB : Cert.Spec.SB.Idx → EReal := val_main_v20 (F := Ideal) x3

end Cert.ReferenceIdeal.RefValue

end
-- ==== Proof.RefClass.lean ====
/-
  The class-cost side of the reference, entry by entry: the sigmoid of a logit, the difference of the two
  focal terms, a target's label-map row divided by its sum, and their inner product over the 512 classes.

  Each lemma reads one stage of the reference at an index written by its coordinates and identifies it with
  the corresponding function of Cert.Spec on the matrices X (logits) and M (gathered label-map rows).
-/
import proofs.«123953_j11467562680409_2_alg».proof.Proof.Gen.ReferenceIdeal.Read
import proofs.«123953_j11467562680409_2_alg».proof.Proof.Spec
import proofs.«123953_j11467562680409_2_alg».proof.Proof.RefBase
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S16x900x512, .f32⟩ : BufTy).Contents (Elt Ideal)) (x1 : (⟨S16x900x4, .f32⟩ : BufTy).Contents (Elt Ideal))
  (x2 : (⟨S16x91x512, .f32⟩ : BufTy).Contents (Elt Ideal)) (x3 : (⟨S16x40x4, .f32⟩ : BufTy).Contents (Elt Ideal))
  (x4 : (⟨S16x40, .i32⟩ : BufTy).Contents (Elt Ideal))

/-- 1 / (1 + exp (-x)) with the word of one is the sigmoid. -/
theorem prob_at (r : Fin 14400) (k : Fin 512) :
    val_main_v6 (F := Ideal) x0 (ix2 r k) = prob (stageX x0) r k := by
  rw [val_main_v6_apply, val_main_v5_apply, val_main_cst_0_apply, val_main_v4_apply, val_main_v3_apply,
    val_main_cst_apply, val_main_v2_apply, val_main_v1_apply]
  simp only [Ideal.hostDivf_def, Ideal.ofBits_def, Ideal.addf_def, Ideal.hostUnary_exp_def, Ideal.hostNegf_def,
    Ideal.negf_def, Ideal.ofBits_one_f32]
  rfl

/-- pos - neg of the focal cost at a logit: every operation is entry by entry, the constants are splats. -/
theorem diff_at (r : Fin 14400) (k : Fin 512) :
    val_main_v43 (F := Ideal) x0 (ix2 r k) = diffR (stageX x0) r k := by
  rw [val_main_v43_apply, val_main_v42_apply, val_main_v37_apply, val_main_v36_apply, val_main_cst_9_apply,
    val_main_v35_apply, val_main_v33_apply, val_main_v32_apply, val_main_cst_7_apply, val_main_v34_apply,
    val_main_cst_8_apply, val_main_v41_apply, val_main_v40_apply, val_main_v39_apply, val_main_v38_apply,
    val_main_cst_10_apply, val_main_v31_apply, val_main_v24_apply, val_main_v23_apply, val_main_cst_4_apply,
    val_main_v22_apply, val_main_v21_apply, val_main_cst_3_apply, val_main_v30_apply, val_main_v29_apply,
    val_main_v28_apply, val_main_v26_apply, val_main_v25_apply, val_main_cst_5_apply, val_main_v27_apply,
    val_main_cst_6_apply]
  simp only [prob_at]
  rfl

/-- The sum of a target's label-map row, started from the zero word. -/
theorem rowsum_at (g : Fin 640) :
    val_main_v16 (F := Ideal) x2 x4 (ix1 g) = zero + ∑ k' : Fin 512, stageM x2 x4 (ix2 g k') := by
  rw [val_main_v16_apply, val_main_cst_2_apply]
  refine congrArg (_ + ·) (Finset.sum_congr rfl fun k' _ => ?_)
  exact congrArg (val_main_v15 (F := Ideal) x2 x4) (by idx2)

/-- A label-map entry divided by its row's sum: the sum is spread back over the row by two broadcasts. -/
theorem lmn_at (g : Fin 640) (k : Fin 512) :
    val_main_v19 (F := Ideal) x2 x4 (ix2 g k) = lmn (stageM x2 x4) g k := by
  rw [val_main_v19_apply, val_main_v18_apply, val_main_v17_apply,
    show idx_main_v17 (idx_main_v18 (ix2 g k)) = ix1 g from by idx1, rowsum_at]
  rfl

/-- The inner product over the classes: row r of the focal differences against row g of the normalized
    label maps (the transpose only swaps the two coordinates). -/
theorem class_at (r : Fin 14400) (g : Fin 640) :
    val_main_v45 (F := Ideal) x0 x2 x4 (ix2 r g) = classR (stageX x0) (stageM x2 x4) r g := by
  rw [val_main_v45_apply]
  unfold Cert.Spec.classR
  refine Finset.sum_congr rfl fun k _ => ?_
  rw [show lidx_main_v45 (ix2 r g) k = ix2 r k from by idx2, diff_at, val_main_v44_apply,
    show idx_main_v44 (ridx_main_v45 (ix2 r g) k) = ix2 g k from by idx2, lmn_at]

end Cert.ReferenceIdeal.RefValue

end
-- ==== Proof.RefBox.lean ====
/-
  The box side of the reference, entry by entry: the L1 distance of a predicted box and a target box, the
  four corners of each box (kept by the reference as the columns of a four-column matrix), and each box's area
  computed from its corners.

  A box is given as centre, centre, width, height in the columns 0..3 of P (predicted) and B (target); its
  corners are lo = centre - width / 2 and hi = centre + width / 2 in each direction.
-/
import proofs.«123953_j11467562680409_2_alg».proof.Proof.Gen.ReferenceIdeal.Read
import proofs.«123953_j11467562680409_2_alg».proof.Proof.Spec
import proofs.«123953_j11467562680409_2_alg».proof.Proof.RefBase
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Spec

/-- Four single columns set side by side: column k of the result is the k-th of them. -/
theorem hcat4_apply {α : Type} {a : Nat} (y0 y1 y2 y3 : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1)
    (p : Fin a) (k : Fin 4) :
    concatenate ⟨2, ![a, 4]⟩ 1 [⟨⟨2, ![a, 1]⟩, y0⟩, ⟨⟨2, ![a, 1]⟩, y1⟩, ⟨⟨2, ![a, 1]⟩, y2⟩, ⟨⟨2, ![a, 1]⟩, y3⟩] h (ix2 p k)
      = ![y0 (ix2 p (0 : Fin 1)), y1 (ix2 p (0 : Fin 1)), y2 (ix2 p (0 : Fin 1)), y3 (ix2 p (0 : Fin 1))] k := by
  have hi : ∀ (k : Fin 4) (d : Fin (⟨2, ![a, 1]⟩ : Shape).rank),
      d.cast (rfl : (⟨2, ![a, 1]⟩ : Shape).rank = (⟨2, ![a, 4]⟩ : Shape).rank) ≠ 1 →
      ((ix2 p (0 : Fin 1) : (⟨2, ![a, 1]⟩ : Shape).Idx) d).val = ((ix2 p k : (⟨2, ![a, 4]⟩ : Shape).Idx) (d.cast rfl)).val :=
    fun k d => match d with
      | ⟨0, _⟩ => fun _ => rfl
      | ⟨1, _⟩ => fun hd => absurd rfl hd
  match k with
  | ⟨0, _⟩ => exact concatenate_apply_piece 1 [⟨⟨2, ![a, 1]⟩, y0⟩, ⟨⟨2, ![a, 1]⟩, y1⟩, ⟨⟨2, ![a, 1]⟩, y2⟩, ⟨⟨2, ![a, 1]⟩, y3⟩] h _ 0 (by show (0 : Nat) < 4; omega) _ y0 rfl rfl 0 rfl (ix2 p (0 : Fin 1)) (hi _) rfl
  | ⟨1, _⟩ => exact concatenate_apply_piece 1 [⟨⟨2, ![a, 1]⟩, y0⟩, ⟨⟨2, ![a, 1]⟩, y1⟩, ⟨⟨2, ![a, 1]⟩, y2⟩, ⟨⟨2, ![a, 1]⟩, y3⟩] h _ 1 (by show (1 : Nat) < 4; omega) _ y1 rfl rfl 1 rfl (ix2 p (0 : Fin 1)) (hi _) rfl
  | ⟨2, _⟩ => exact concatenate_apply_piece 1 [⟨⟨2, ![a, 1]⟩, y0⟩, ⟨⟨2, ![a, 1]⟩, y1⟩, ⟨⟨2, ![a, 1]⟩, y2⟩, ⟨⟨2, ![a, 1]⟩, y3⟩] h _ 2 (by show (2 : Nat) < 4; omega) _ y2 rfl rfl 2 rfl (ix2 p (0 : Fin 1)) (hi _) rfl
  | ⟨3, _⟩ => exact concatenate_apply_piece 1 [⟨⟨2, ![a, 1]⟩, y0⟩, ⟨⟨2, ![a, 1]⟩, y1⟩, ⟨⟨2, ![a, 1]⟩, y2⟩, ⟨⟨2, ![a, 1]⟩, y3⟩] h _ 3 (by show (3 : Nat) < 4; omega) _ y3 rfl rfl 3 rfl (ix2 p (0 : Fin 1)) (hi _) rfl

variable (x0 : (⟨S16x900x512, .f32⟩ : BufTy).Contents (Elt Ideal)) (x1 : (⟨S16x900x4, .f32⟩ : BufTy).Contents (Elt Ideal))
  (x2 : (⟨S16x91x512, .f32⟩ : BufTy).Contents (Elt Ideal)) (x3 : (⟨S16x40x4, .f32⟩ : BufTy).Contents (Elt Ideal))
  (x4 : (⟨S16x40, .i32⟩ : BufTy).Contents (Elt Ideal))

/-! ### The L1 distance -/

/-- The sum over the four coordinates of |P r a - B g a|, started from the zero word: both boxes are spread
    over the 14400 x 640 x 4 grid by two broadcasts each. -/
theorem bbox_at (r : Fin 14400) (g : Fin 640) :
    val_main_v52 (F := Ideal) x1 x3 (ix2 r g) = bboxR (stageP x1) (stageB x3) r g := by
  rw [val_main_v52_apply, val_main_cst_11_apply]
  unfold Cert.Spec.bboxR
  refine congrArg (_ + ·) (Finset.sum_congr rfl fun a _ => ?_)
  rw [val_main_v51_apply, val_main_v50_apply, val_main_v48_apply, val_main_v46_apply, val_main_v49_apply,
    val_main_v47_apply,
    show idx_main_v46 (idx_main_v48 (idx_main_v52 (ix2 r g) a)) = ix2 r a from by idx2,
    show idx_main_v47 (idx_main_v49 (idx_main_v52 (ix2 r g) a)) = ix2 g a from by idx2]
  rfl

/-! ### The columns of P and B as vectors -/

/-- Column 0 of P cut out and flattened to a vector. -/
theorem pcol0_at (r : Fin 14400) : val_main_v54 (F := Ideal) x1 (ix1 r) = stageP x1 (ix2 r 0) := by
  rw [val_main_v54_apply, val_main_v53_apply]
  exact congrArg (val_main_v7 (F := Ideal) x1) (by idx2)

/-- Column 1 of P cut out and flattened to a vector. -/
theorem pcol1_at (r : Fin 14400) : val_main_v56 (F := Ideal) x1 (ix1 r) = stageP x1 (ix2 r 1) := by
  rw [val_main_v56_apply, val_main_v55_apply]
  exact congrArg (val_main_v7 (F := Ideal) x1) (by idx2)

/-- Column 2 of P cut out and flattened to a vector. -/
theorem pcol2_at (r : Fin 14400) : val_main_v58 (F := Ideal) x1 (ix1 r) = stageP x1 (ix2 r 2) := by
  rw [val_main_v58_apply, val_main_v57_apply]
  exact congrArg (val_main_v7 (F := Ideal) x1) (by idx2)

/-- Column 3 of P cut out and flattened to a vector. -/
theorem pcol3_at (r : Fin 14400) : val_main_v60 (F := Ideal) x1 (ix1 r) = stageP x1 (ix2 r 3) := by
  rw [val_main_v60_apply, val_main_v59_apply]
  exact congrArg (val_main_v7 (F := Ideal) x1) (by idx2)

/-- Column 0 of B cut out and flattened to a vector. -/
theorem tcol0_at (g : Fin 640) : val_main_v79 (F := Ideal) x3 (ix1 g) = stageB x3 (ix2 g 0) := by
  rw [val_main_v79_apply, val_main_v78_apply]
  exact congrArg (val_main_v20 (F := Ideal) x3) (by idx2)

/-- Column 1 of B cut out and flattened to a vector. -/
theorem tcol1_at (g : Fin 640) : val_main_v81 (F := Ideal) x3 (ix1 g) = stageB x3 (ix2 g 1) := by
  rw [val_main_v81_apply, val_main_v80_apply]
  exact congrArg (val_main_v20 (F := Ideal) x3) (by idx2)

/-- Column 2 of B cut out and flattened to a vector. -/
theorem tcol2_at (g : Fin 640) : val_main_v83 (F := Ideal) x3 (ix1 g) = stageB x3 (ix2 g 2) := by
  rw [val_main_v83_apply, val_main_v82_apply]
  exact congrArg (val_main_v20 (F := Ideal) x3) (by idx2)

/-- Column 3 of B cut out and flattened to a vector. -/
theorem tcol3_at (g : Fin 640) : val_main_v85 (F := Ideal) x3 (ix1 g) = stageB x3 (ix2 g 3) := by
  rw [val_main_v85_apply, val_main_v84_apply]
  exact congrArg (val_main_v20 (F := Ideal) x3) (by idx2)

/-! ### The corners -/
/-- The left edge of a predicted box: centre less half the extent. -/
theorem pcorner0_at (r : Fin 14400) :
    val_main_v63 (F := Ideal) x1 (ix1 r) = lo (stageP x1 (ix2 r 0)) (stageP x1 (ix2 r 2)) := by
  rw [val_main_v63_apply, val_main_v62_apply, val_main_v61_apply, val_main_cst_12_apply, pcol0_at, pcol2_at]
  rfl

/-- The lower edge of a predicted box: centre less half the extent. -/
theorem pcorner1_at (r : Fin 14400) :
    val_main_v66 (F := Ideal) x1 (ix1 r) = lo (stageP x1 (ix2 r 1)) (stageP x1 (ix2 r 3)) := by
  rw [val_main_v66_apply, val_main_v65_apply, val_main_v64_apply, val_main_cst_13_apply, pcol1_at, pcol3_at]
  rfl

/-- The right edge of a predicted box: centre plus half the extent. -/
theorem pcorner2_at (r : Fin 14400) :
    val_main_v69 (F := Ideal) x1 (ix1 r) = hi (stageP x1 (ix2 r 0)) (stageP x1 (ix2 r 2)) := by
  rw [val_main_v69_apply, val_main_v68_apply, val_main_v67_apply, val_main_cst_14_apply, pcol0_at, pcol2_at]
  rfl

/-- The upper edge of a predicted box: centre plus half the extent. -/
theorem pcorner3_at (r : Fin 14400) :
    val_main_v72 (F := Ideal) x1 (ix1 r) = hi (stageP x1 (ix2 r 1)) (stageP x1 (ix2 r 3)) := by
  rw [val_main_v72_apply, val_main_v71_apply, val_main_v70_apply, val_main_cst_15_apply, pcol1_at, pcol3_at]
  rfl

/-- The left edge of a target box: centre less half the extent. -/
theorem tcorner0_at (g : Fin 640) :
    val_main_v88 (F := Ideal) x3 (ix1 g) = lo (stageB x3 (ix2 g 0)) (stageB x3 (ix2 g 2)) := by
  rw [val_main_v88_apply, val_main_v87_apply, val_main_v86_apply, val_main_cst_16_apply, tcol0_at, tcol2_at]
  rfl

/-- The lower edge of a target box: centre less half the extent. -/
theorem tcorner1_at (g : Fin 640) :
    val_main_v91 (F := Ideal) x3 (ix1 g) = lo (stageB x3 (ix2 g 1)) (stageB x3 (ix2 g 3)) := by
  rw [val_main_v91_apply, val_main_v90_apply, val_main_v89_apply, val_main_cst_17_apply, tcol1_at, tcol3_at]
  rfl

/-- The right edge of a target box: centre plus half the extent. -/
theorem tcorner2_at (g : Fin 640) :
    val_main_v94 (F := Ideal) x3 (ix1 g) = hi (stageB x3 (ix2 g 0)) (stageB x3 (ix2 g 2)) := by
  rw [val_main_v94_apply, val_main_v93_apply, val_main_v92_apply, val_main_cst_18_apply, tcol0_at, tcol2_at]
  rfl

/-- The upper edge of a target box: centre plus half the extent. -/
theorem tcorner3_at (g : Fin 640) :
    val_main_v97 (F := Ideal) x3 (ix1 g) = hi (stageB x3 (ix2 g 1)) (stageB x3 (ix2 g 3)) := by
  rw [val_main_v97_apply, val_main_v96_apply, val_main_v95_apply, val_main_cst_19_apply, tcol1_at, tcol3_at]
  rfl

/-! ### The corner matrices: column k is the k-th corner -/

/-- Column 0 of the predicted boxes' corner matrix. -/
theorem pcorners0_at (r : Fin 14400) :
    val_main_v77 (F := Ideal) x1 (ix2 r 0) = lo (stageP x1 (ix2 r 0)) (stageP x1 (ix2 r 2)) := by
  unfold val_main_v77
  refine (hcat4_apply (val_main_v73 (F := Ideal) x1) (val_main_v74 (F := Ideal) x1) (val_main_v75 (F := Ideal) x1)
    (val_main_v76 (F := Ideal) x1) concatenates_S14400x1_S14400x1_S14400x1_S14400x1_S14400x4_d1 r 0).trans ?_
  show val_main_v73 (F := Ideal) x1 (ix2 r (0 : Fin 1)) = _
  rw [val_main_v73_apply, show idx_main_v73 (ix2 r (0 : Fin 1)) = ix1 r from by idx1, pcorner0_at]

/-- Column 1 of the predicted boxes' corner matrix. -/
theorem pcorners1_at (r : Fin 14400) :
    val_main_v77 (F := Ideal) x1 (ix2 r 1) = lo (stageP x1 (ix2 r 1)) (stageP x1 (ix2 r 3)) := by
  unfold val_main_v77
  refine (hcat4_apply (val_main_v73 (F := Ideal) x1) (val_main_v74 (F := Ideal) x1) (val_main_v75 (F := Ideal) x1)
    (val_main_v76 (F := Ideal) x1) concatenates_S14400x1_S14400x1_S14400x1_S14400x1_S14400x4_d1 r 1).trans ?_
  show val_main_v74 (F := Ideal) x1 (ix2 r (0 : Fin 1)) = _
  rw [val_main_v74_apply, show idx_main_v74 (ix2 r (0 : Fin 1)) = ix1 r from by idx1, pcorner1_at]

/-- Column 2 of the predicted boxes' corner matrix. -/
theorem pcorners2_at (r : Fin 14400) :
    val_main_v77 (F := Ideal) x1 (ix2 r 2) = hi (stageP x1 (ix2 r 0)) (stageP x1 (ix2 r 2)) := by
  unfold val_main_v77
  refine (hcat4_apply (val_main_v73 (F := Ideal) x1) (val_main_v74 (F := Ideal) x1) (val_main_v75 (F := Ideal) x1)
    (val_main_v76 (F := Ideal) x1) concatenates_S14400x1_S14400x1_S14400x1_S14400x1_S14400x4_d1 r 2).trans ?_
  show val_main_v75 (F := Ideal) x1 (ix2 r (0 : Fin 1)) = _
  rw [val_main_v75_apply, show idx_main_v75 (ix2 r (0 : Fin 1)) = ix1 r from by idx1, pcorner2_at]

/-- Column 3 of the predicted boxes' corner matrix. -/
theorem pcorners3_at (r : Fin 14400) :
    val_main_v77 (F := Ideal) x1 (ix2 r 3) = hi (stageP x1 (ix2 r 1)) (stageP x1 (ix2 r 3)) := by
  unfold val_main_v77
  refine (hcat4_apply (val_main_v73 (F := Ideal) x1) (val_main_v74 (F := Ideal) x1) (val_main_v75 (F := Ideal) x1)
    (val_main_v76 (F := Ideal) x1) concatenates_S14400x1_S14400x1_S14400x1_S14400x1_S14400x4_d1 r 3).trans ?_
  show val_main_v76 (F := Ideal) x1 (ix2 r (0 : Fin 1)) = _
  rw [val_main_v76_apply, show idx_main_v76 (ix2 r (0 : Fin 1)) = ix1 r from by idx1, pcorner3_at]

/-- Column 0 of the target boxes' corner matrix. -/
theorem tcorners0_at (g : Fin 640) :
    val_main_v102 (F := Ideal) x3 (ix2 g 0) = lo (stageB x3 (ix2 g 0)) (stageB x3 (ix2 g 2)) := by
  unfold val_main_v102
  refine (hcat4_apply (val_main_v98 (F := Ideal) x3) (val_main_v99 (F := Ideal) x3) (val_main_v100 (F := Ideal) x3)
    (val_main_v101 (F := Ideal) x3) concatenates_S640x1_S640x1_S640x1_S640x1_S640x4_d1 g 0).trans ?_
  show val_main_v98 (F := Ideal) x3 (ix2 g (0 : Fin 1)) = _
  rw [val_main_v98_apply, show idx_main_v98 (ix2 g (0 : Fin 1)) = ix1 g from by idx1, tcorner0_at]

/-- Column 1 of the target boxes' corner matrix. -/
theorem tcorners1_at (g : Fin 640) :
    val_main_v102 (F := Ideal) x3 (ix2 g 1) = lo (stageB x3 (ix2 g 1)) (stageB x3 (ix2 g 3)) := by
  unfold val_main_v102
  refine (hcat4_apply (val_main_v98 (F := Ideal) x3) (val_main_v99 (F := Ideal) x3) (val_main_v100 (F := Ideal) x3)
    (val_main_v101 (F := Ideal) x3) concatenates_S640x1_S640x1_S640x1_S640x1_S640x4_d1 g 1).trans ?_
  show val_main_v99 (F := Ideal) x3 (ix2 g (0 : Fin 1)) = _
  rw [val_main_v99_apply, show idx_main_v99 (ix2 g (0 : Fin 1)) = ix1 g from by idx1, tcorner1_at]

/-- Column 2 of the target boxes' corner matrix. -/
theorem tcorners2_at (g : Fin 640) :
    val_main_v102 (F := Ideal) x3 (ix2 g 2) = hi (stageB x3 (ix2 g 0)) (stageB x3 (ix2 g 2)) := by
  unfold val_main_v102
  refine (hcat4_apply (val_main_v98 (F := Ideal) x3) (val_main_v99 (F := Ideal) x3) (val_main_v100 (F := Ideal) x3)
    (val_main_v101 (F := Ideal) x3) concatenates_S640x1_S640x1_S640x1_S640x1_S640x4_d1 g 2).trans ?_
  show val_main_v100 (F := Ideal) x3 (ix2 g (0 : Fin 1)) = _
  rw [val_main_v100_apply, show idx_main_v100 (ix2 g (0 : Fin 1)) = ix1 g from by idx1, tcorner2_at]

/-- Column 3 of the target boxes' corner matrix. -/
theorem tcorners3_at (g : Fin 640) :
    val_main_v102 (F := Ideal) x3 (ix2 g 3) = hi (stageB x3 (ix2 g 1)) (stageB x3 (ix2 g 3)) := by
  unfold val_main_v102
  refine (hcat4_apply (val_main_v98 (F := Ideal) x3) (val_main_v99 (F := Ideal) x3) (val_main_v100 (F := Ideal) x3)
    (val_main_v101 (F := Ideal) x3) concatenates_S640x1_S640x1_S640x1_S640x1_S640x4_d1 g 3).trans ?_
  show val_main_v101 (F := Ideal) x3 (ix2 g (0 : Fin 1)) = _
  rw [val_main_v101_apply, show idx_main_v101 (ix2 g (0 : Fin 1)) = ix1 g from by idx1, tcorner3_at]

/-! ### The areas from the corners -/

/-- A predicted box's area: (right - left) * (upper - lower), each corner cut out of the corner matrix. -/
theorem parea_at (r : Fin 14400) :
    val_main_v113 (F := Ideal) x1 (ix1 r)
      = (hi (stageP x1 (ix2 r 0)) (stageP x1 (ix2 r 2)) - lo (stageP x1 (ix2 r 0)) (stageP x1 (ix2 r 2)))
        * (hi (stageP x1 (ix2 r 1)) (stageP x1 (ix2 r 3)) - lo (stageP x1 (ix2 r 1)) (stageP x1 (ix2 r 3))) := by
  rw [val_main_v113_apply, val_main_v107_apply, val_main_v104_apply, val_main_v103_apply, val_main_v106_apply,
    val_main_v105_apply, val_main_v112_apply, val_main_v109_apply, val_main_v108_apply, val_main_v111_apply,
    val_main_v110_apply,
    show idx_main_v103 (idx_main_v104 (ix1 r)) = ix2 r 2 from by idx2,
    show idx_main_v105 (idx_main_v106 (ix1 r)) = ix2 r 0 from by idx2,
    show idx_main_v108 (idx_main_v109 (ix1 r)) = ix2 r 3 from by idx2,
    show idx_main_v110 (idx_main_v111 (ix1 r)) = ix2 r 1 from by idx2,
    pcorners2_at, pcorners0_at, pcorners3_at, pcorners1_at]
  rfl

/-- A target box's area, likewise. -/
theorem tarea_at (g : Fin 640) :
    val_main_v124 (F := Ideal) x3 (ix1 g)
      = (hi (stageB x3 (ix2 g 0)) (stageB x3 (ix2 g 2)) - lo (stageB x3 (ix2 g 0)) (stageB x3 (ix2 g 2)))
        * (hi (stageB x3 (ix2 g 1)) (stageB x3 (ix2 g 3)) - lo (stageB x3 (ix2 g 1)) (stageB x3 (ix2 g 3))) := by
  rw [val_main_v124_apply, val_main_v118_apply, val_main_v115_apply, val_main_v114_apply, val_main_v117_apply,
    val_main_v116_apply, val_main_v123_apply, val_main_v120_apply, val_main_v119_apply, val_main_v122_apply,
    val_main_v121_apply,
    show idx_main_v114 (idx_main_v115 (ix1 g)) = ix2 g 2 from by idx2,
    show idx_main_v116 (idx_main_v117 (ix1 g)) = ix2 g 0 from by idx2,
    show idx_main_v119 (idx_main_v120 (ix1 g)) = ix2 g 3 from by idx2,
    show idx_main_v121 (idx_main_v122 (ix1 g)) = ix2 g 1 from by idx2,
    tcorners2_at, tcorners0_at, tcorners3_at, tcorners1_at]
  rfl

end Cert.ReferenceIdeal.RefValue

end
-- ==== Proof.RefGiou.lean ====
/-
  The generalized IoU of a predicted box and a target box as the reference computes it, entry by entry.

  From the corner matrices the reference forms, on a 14400 x 640 x 2 grid (query, target, direction), the
  overlap min(right, right') - max(left, left') clipped at zero, and likewise the extent of the smallest box
  holding both; the product over the two directions gives the intersection and the enclosing area, and with
  the two boxes' areas  giou = inter / union - (enc - union) / enc  where union = area + area' - inter.
-/
import proofs.«123953_j11467562680409_2_alg».proof.Proof.Gen.ReferenceIdeal.Read
import proofs.«123953_j11467562680409_2_alg».proof.Proof.Spec
import proofs.«123953_j11467562680409_2_alg».proof.Proof.RefBase
import proofs.«123953_j11467562680409_2_alg».proof.Proof.RefBox
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S16x900x512, .f32⟩ : BufTy).Contents (Elt Ideal)) (x1 : (⟨S16x900x4, .f32⟩ : BufTy).Contents (Elt Ideal))
  (x2 : (⟨S16x91x512, .f32⟩ : BufTy).Contents (Elt Ideal)) (x3 : (⟨S16x40x4, .f32⟩ : BufTy).Contents (Elt Ideal))
  (x4 : (⟨S16x40, .i32⟩ : BufTy).Contents (Elt Ideal))

/-- Splitting a row-major position back into coordinates: an index map whose first two coordinates at (i0, i1)
    are (i0 * 640 + i1) / 640 and (i0 * 640 + i1) % 640 sends (r, g), with g < 640, to coordinates r and g. -/
theorem unflat0 (r : Fin 14400) (g : Fin 640) (f : S14400x640.Idx → S14400x640x1.Idx)
    (h0 : ∀ i, (f i 0).val = ((i 0).val * 640 + (i 1).val) / 640)
    (h1 : ∀ i, (f i 1).val = ((i 0).val * 640 + (i 1).val) / 1 % 640) :
    (f (ix2 r g) 0).val = r.val ∧ (f (ix2 r g) 1).val = g.val := by
  refine ⟨?_, ?_⟩
  · rw [h0]; show (r.val * 640 + g.val) / 640 = r.val; omega
  · rw [h1]; show (r.val * 640 + g.val) / 1 % 640 = g.val; omega

/-- The overlap of the two boxes in direction x, clipped below at the zero word. -/
theorem overlap0_at (r : Fin 14400) (g : Fin 640) :
    val_main_v140 (F := Ideal) x1 x3 (ix3 r g (0 : Fin 2))
      = max zero (min (hi (stageP x1 (ix2 r 0)) (stageP x1 (ix2 r 2))) (hi (stageB x3 (ix2 g 0)) (stageB x3 (ix2 g 2))) - max (lo (stageP x1 (ix2 r 0)) (stageP x1 (ix2 r 2))) (lo (stageB x3 (ix2 g 0)) (stageB x3 (ix2 g 2)))) := by
  rw [val_main_v140_apply, val_main_call0_v1_apply, val_main_call0_v0_apply, val_main_cst_20_apply,
    val_main_v139_apply, val_main_v138_apply, val_main_v136_apply, val_main_v133_apply, val_main_v132_apply,
    val_main_v137_apply, val_main_v135_apply, val_main_v134_apply,
    val_main_v131_apply, val_main_v129_apply, val_main_v126_apply, val_main_v125_apply,
    val_main_v130_apply, val_main_v128_apply, val_main_v127_apply,
    show idx_main_v132 (idx_main_v133 (idx_main_v136 (ix3 r g (0 : Fin 2)))) = ix2 r 2 from by idx2,
    show idx_main_v134 (idx_main_v135 (idx_main_v137 (ix3 r g (0 : Fin 2)))) = ix2 g 2 from by idx2,
    show idx_main_v125 (idx_main_v126 (idx_main_v129 (ix3 r g (0 : Fin 2)))) = ix2 r 0 from by idx2,
    show idx_main_v127 (idx_main_v128 (idx_main_v130 (ix3 r g (0 : Fin 2)))) = ix2 g 0 from by idx2,
    pcorners2_at, tcorners2_at, pcorners0_at, tcorners0_at]
  rfl

/-- The overlap of the two boxes in direction y, clipped below at the zero word. -/
theorem overlap1_at (r : Fin 14400) (g : Fin 640) :
    val_main_v140 (F := Ideal) x1 x3 (ix3 r g (1 : Fin 2))
      = max zero (min (hi (stageP x1 (ix2 r 1)) (stageP x1 (ix2 r 3))) (hi (stageB x3 (ix2 g 1)) (stageB x3 (ix2 g 3))) - max (lo (stageP x1 (ix2 r 1)) (stageP x1 (ix2 r 3))) (lo (stageB x3 (ix2 g 1)) (stageB x3 (ix2 g 3)))) := by
  rw [val_main_v140_apply, val_main_call0_v1_apply, val_main_call0_v0_apply, val_main_cst_20_apply,
    val_main_v139_apply, val_main_v138_apply, val_main_v136_apply, val_main_v133_apply, val_main_v132_apply,
    val_main_v137_apply, val_main_v135_apply, val_main_v134_apply,
    val_main_v131_apply, val_main_v129_apply, val_main_v126_apply, val_main_v125_apply,
    val_main_v130_apply, val_main_v128_apply, val_main_v127_apply,
    show idx_main_v132 (idx_main_v133 (idx_main_v136 (ix3 r g (1 : Fin 2)))) = ix2 r 3 from by idx2,
    show idx_main_v134 (idx_main_v135 (idx_main_v137 (ix3 r g (1 : Fin 2)))) = ix2 g 3 from by idx2,
    show idx_main_v125 (idx_main_v126 (idx_main_v129 (ix3 r g (1 : Fin 2)))) = ix2 r 1 from by idx2,
    show idx_main_v127 (idx_main_v128 (idx_main_v130 (ix3 r g (1 : Fin 2)))) = ix2 g 1 from by idx2,
    pcorners3_at, tcorners3_at, pcorners1_at, tcorners1_at]
  rfl

/-- The extent of the smallest box holding both in direction x, clipped below at the zero word. -/
theorem extent0_at (r : Fin 14400) (g : Fin 640) :
    val_main_v168 (F := Ideal) x1 x3 (ix3 r g (0 : Fin 2))
      = max zero (max (hi (stageP x1 (ix2 r 0)) (stageP x1 (ix2 r 2))) (hi (stageB x3 (ix2 g 0)) (stageB x3 (ix2 g 2))) - min (lo (stageP x1 (ix2 r 0)) (stageP x1 (ix2 r 2))) (lo (stageB x3 (ix2 g 0)) (stageB x3 (ix2 g 2)))) := by
  rw [val_main_v168_apply, val_main_call1_v1_apply, val_main_call1_v0_apply, val_main_cst_21_apply,
    val_main_v167_apply, val_main_v166_apply, val_main_v164_apply, val_main_v161_apply, val_main_v160_apply,
    val_main_v165_apply, val_main_v163_apply, val_main_v162_apply,
    val_main_v159_apply, val_main_v157_apply, val_main_v154_apply, val_main_v153_apply,
    val_main_v158_apply, val_main_v156_apply, val_main_v155_apply,
    show idx_main_v160 (idx_main_v161 (idx_main_v164 (ix3 r g (0 : Fin 2)))) = ix2 r 2 from by idx2,
    show idx_main_v162 (idx_main_v163 (idx_main_v165 (ix3 r g (0 : Fin 2)))) = ix2 g 2 from by idx2,
    show idx_main_v153 (idx_main_v154 (idx_main_v157 (ix3 r g (0 : Fin 2)))) = ix2 r 0 from by idx2,
    show idx_main_v155 (idx_main_v156 (idx_main_v158 (ix3 r g (0 : Fin 2)))) = ix2 g 0 from by idx2,
    pcorners2_at, tcorners2_at, pcorners0_at, tcorners0_at]
  rfl

/-- The extent of the smallest box holding both in direction y, clipped below at the zero word. -/
theorem extent1_at (r : Fin 14400) (g : Fin 640) :
    val_main_v168 (F := Ideal) x1 x3 (ix3 r g (1 : Fin 2))
      = max zero (max (hi (stageP x1 (ix2 r 1)) (stageP x1 (ix2 r 3))) (hi (stageB x3 (ix2 g 1)) (stageB x3 (ix2 g 3))) - min (lo (stageP x1 (ix2 r 1)) (stageP x1 (ix2 r 3))) (lo (stageB x3 (ix2 g 1)) (stageB x3 (ix2 g 3)))) := by
  rw [val_main_v168_apply, val_main_call1_v1_apply, val_main_call1_v0_apply, val_main_cst_21_apply,
    val_main_v167_apply, val_main_v166_apply, val_main_v164_apply, val_main_v161_apply, val_main_v160_apply,
    val_main_v165_apply, val_main_v163_apply, val_main_v162_apply,
    val_main_v159_apply, val_main_v157_apply, val_main_v154_apply, val_main_v153_apply,
    val_main_v158_apply, val_main_v156_apply, val_main_v155_apply,
    show idx_main_v160 (idx_main_v161 (idx_main_v164 (ix3 r g (1 : Fin 2)))) = ix2 r 3 from by idx2,
    show idx_main_v162 (idx_main_v163 (idx_main_v165 (ix3 r g (1 : Fin 2)))) = ix2 g 3 from by idx2,
    show idx_main_v153 (idx_main_v154 (idx_main_v157 (ix3 r g (1 : Fin 2)))) = ix2 r 1 from by idx2,
    show idx_main_v155 (idx_main_v156 (idx_main_v158 (ix3 r g (1 : Fin 2)))) = ix2 g 1 from by idx2,
    pcorners3_at, tcorners3_at, pcorners1_at, tcorners1_at]
  rfl

/-- The intersection's area: the product of the two clipped overlaps. -/
theorem inter_at (r : Fin 14400) (g : Fin 640) :
    val_main_v145 (F := Ideal) x1 x3 (ix2 r g)
      = interOf (lo (stageP x1 (ix2 r 0)) (stageP x1 (ix2 r 2))) (lo (stageP x1 (ix2 r 1)) (stageP x1 (ix2 r 3))) (hi (stageP x1 (ix2 r 0)) (stageP x1 (ix2 r 2))) (hi (stageP x1 (ix2 r 1)) (stageP x1 (ix2 r 3)))
          (lo (stageB x3 (ix2 g 0)) (stageB x3 (ix2 g 2))) (lo (stageB x3 (ix2 g 1)) (stageB x3 (ix2 g 3))) (hi (stageB x3 (ix2 g 0)) (stageB x3 (ix2 g 2))) (hi (stageB x3 (ix2 g 1)) (stageB x3 (ix2 g 3))) := by
  rw [val_main_v145_apply, val_main_v142_apply, val_main_v141_apply, val_main_v144_apply, val_main_v143_apply,
    show idx_main_v141 (idx_main_v142 (ix2 r g)) = ix3 r g (0 : Fin 2) from
      funext fun a => Fin.ext (by
        match a with
        | ⟨0, _⟩ => exact (unflat0 r g idx_main_v142 (fun _ => rfl) (fun _ => rfl)).1
        | ⟨1, _⟩ => exact (unflat0 r g idx_main_v142 (fun _ => rfl) (fun _ => rfl)).2
        | ⟨2, _⟩ => rfl),
    show idx_main_v143 (idx_main_v144 (ix2 r g)) = ix3 r g (1 : Fin 2) from
      funext fun a => Fin.ext (by
        match a with
        | ⟨0, _⟩ => exact (unflat0 r g idx_main_v144 (fun _ => rfl) (fun _ => rfl)).1
        | ⟨1, _⟩ => exact (unflat0 r g idx_main_v144 (fun _ => rfl) (fun _ => rfl)).2
        | ⟨2, _⟩ => rfl),
    overlap0_at, overlap1_at]
  rfl

/-- The enclosing box's area: the product of the two clipped extents. -/
theorem enc_at (r : Fin 14400) (g : Fin 640) :
    val_main_v173 (F := Ideal) x1 x3 (ix2 r g)
      = encOf (lo (stageP x1 (ix2 r 0)) (stageP x1 (ix2 r 2))) (lo (stageP x1 (ix2 r 1)) (stageP x1 (ix2 r 3))) (hi (stageP x1 (ix2 r 0)) (stageP x1 (ix2 r 2))) (hi (stageP x1 (ix2 r 1)) (stageP x1 (ix2 r 3)))
          (lo (stageB x3 (ix2 g 0)) (stageB x3 (ix2 g 2))) (lo (stageB x3 (ix2 g 1)) (stageB x3 (ix2 g 3))) (hi (stageB x3 (ix2 g 0)) (stageB x3 (ix2 g 2))) (hi (stageB x3 (ix2 g 1)) (stageB x3 (ix2 g 3))) := by
  rw [val_main_v173_apply, val_main_v170_apply, val_main_v169_apply, val_main_v172_apply, val_main_v171_apply,
    show idx_main_v169 (idx_main_v170 (ix2 r g)) = ix3 r g (0 : Fin 2) from
      funext fun a => Fin.ext (by
        match a with
        | ⟨0, _⟩ => exact (unflat0 r g idx_main_v170 (fun _ => rfl) (fun _ => rfl)).1
        | ⟨1, _⟩ => exact (unflat0 r g idx_main_v170 (fun _ => rfl) (fun _ => rfl)).2
        | ⟨2, _⟩ => rfl),
    show idx_main_v171 (idx_main_v172 (ix2 r g)) = ix3 r g (1 : Fin 2) from
      funext fun a => Fin.ext (by
        match a with
        | ⟨0, _⟩ => exact (unflat0 r g idx_main_v172 (fun _ => rfl) (fun _ => rfl)).1
        | ⟨1, _⟩ => exact (unflat0 r g idx_main_v172 (fun _ => rfl) (fun _ => rfl)).2
        | ⟨2, _⟩ => rfl),
    extent0_at, extent1_at]
  rfl

/-- The union's area: the two boxes' areas (a column and a row spread over the 14400 x 640 grid) less the
    intersection. -/
theorem union_at (r : Fin 14400) (g : Fin 640) :
    val_main_v151 (F := Ideal) x1 x3 (ix2 r g)
      = (((hi (stageP x1 (ix2 r 0)) (stageP x1 (ix2 r 2)) - lo (stageP x1 (ix2 r 0)) (stageP x1 (ix2 r 2))) * (hi (stageP x1 (ix2 r 1)) (stageP x1 (ix2 r 3)) - lo (stageP x1 (ix2 r 1)) (stageP x1 (ix2 r 3))))
          + ((hi (stageB x3 (ix2 g 0)) (stageB x3 (ix2 g 2)) - lo (stageB x3 (ix2 g 0)) (stageB x3 (ix2 g 2))) * (hi (stageB x3 (ix2 g 1)) (stageB x3 (ix2 g 3)) - lo (stageB x3 (ix2 g 1)) (stageB x3 (ix2 g 3)))))
        - interOf (lo (stageP x1 (ix2 r 0)) (stageP x1 (ix2 r 2))) (lo (stageP x1 (ix2 r 1)) (stageP x1 (ix2 r 3))) (hi (stageP x1 (ix2 r 0)) (stageP x1 (ix2 r 2))) (hi (stageP x1 (ix2 r 1)) (stageP x1 (ix2 r 3)))
            (lo (stageB x3 (ix2 g 0)) (stageB x3 (ix2 g 2))) (lo (stageB x3 (ix2 g 1)) (stageB x3 (ix2 g 3))) (hi (stageB x3 (ix2 g 0)) (stageB x3 (ix2 g 2))) (hi (stageB x3 (ix2 g 1)) (stageB x3 (ix2 g 3))) := by
  rw [val_main_v151_apply, val_main_v150_apply, val_main_v148_apply, val_main_v146_apply, val_main_v149_apply,
    val_main_v147_apply,
    show idx_main_v146 (idx_main_v148 (ix2 r g)) = ix1 r from by idx1,
    show idx_main_v147 (idx_main_v149 (ix2 r g)) = ix1 g from by idx1,
    parea_at, tarea_at, inter_at]
  rfl

/-- Minus the generalized IoU, as the reference's last stage before the weighted sum. -/
theorem neg_giou_at (r : Fin 14400) (g : Fin 640) :
    val_main_v177 (F := Ideal) x1 x3 (ix2 r g) = -(giouR (stageP x1) (stageB x3) r g) := by
  rw [val_main_v177_apply, val_main_v176_apply, val_main_v152_apply, val_main_v175_apply, val_main_v174_apply,
    union_at, inter_at, enc_at]
  rfl

end Cert.ReferenceIdeal.RefValue

end
-- ==== Proof.RefStages.lean ====
/-
  The reference's cost matrix, entry by entry: entry (r, g) of the stage before the final reshape is
  Cert.Spec.costR of the four matrices X, P, M, B at (r, g) —

      5 * (L1 distance) + 2 * (focal class cost) + 2 * (minus the generalized IoU),

  each weight a splat of its word, the three parts read by the lemmas of the class, box and IoU modules.
-/
import proofs.«123953_j11467562680409_2_alg».proof.Proof.Gen.ReferenceIdeal.Read
import proofs.«123953_j11467562680409_2_alg».proof.Proof.Spec
import proofs.«123953_j11467562680409_2_alg».proof.Proof.RefBase
import proofs.«123953_j11467562680409_2_alg».proof.Proof.RefClass
import proofs.«123953_j11467562680409_2_alg».proof.Proof.RefBox
import proofs.«123953_j11467562680409_2_alg».proof.Proof.RefGiou
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S16x900x512, .f32⟩ : BufTy).Contents (Elt Ideal)) (x1 : (⟨S16x900x4, .f32⟩ : BufTy).Contents (Elt Ideal))
  (x2 : (⟨S16x91x512, .f32⟩ : BufTy).Contents (Elt Ideal)) (x3 : (⟨S16x40x4, .f32⟩ : BufTy).Contents (Elt Ideal))
  (x4 : (⟨S16x40, .i32⟩ : BufTy).Contents (Elt Ideal))

/-- The weighted sum of the three costs at a query and a target. -/
theorem ref_at (r : Fin 14400) (g : Fin 640) :
    val_main_v185 (F := Ideal) x0 x1 x2 x3 x4 (ix2 r g)
      = costR (stageX x0) (stageP x1) (stageM x2 x4) (stageB x3) (ix2 r g) := by
  rw [val_main_v185_apply, val_main_v182_apply, val_main_v179_apply, val_main_v178_apply, val_main_cst_22_apply,
    val_main_v181_apply, val_main_v180_apply, val_main_cst_23_apply, val_main_v184_apply, val_main_v183_apply,
    val_main_cst_24_apply, bbox_at, class_at, neg_giou_at]
  rfl

/-- The same as an equation between the two matrices. -/
theorem ref_stage :
    (val_main_v185 (F := Ideal) x0 x1 x2 x3 x4 : S14400x640.Idx → EReal)
      = costR (stageX x0) (stageP x1) (stageM x2 x4) (stageB x3) := by
  funext j
  obtain ⟨r, g, rfl⟩ : ∃ (r : Fin 14400) (g : Fin 640), j = ix2 r g := ⟨j 0, j 1, eq_ix2 j⟩
  exact ref_at x0 x1 x2 x3 x4 r g

end Cert.ReferenceIdeal.RefValue

end
-- ==== Proof.RefValue.lean ====
/-
  The reference's run, with its result stated by the specification: every weakly fair execution of the
  reference ends with its result array equal to the 14400 x 640 matrix Cert.Spec.costR of the four matrices
  computed from the argument arrays, read as 16 x 900 x 640, and with the argument arrays unchanged; and the
  reference's frame, which is the same run with the result dropped.
-/
import proofs.«123953_j11467562680409_2_alg».proof.Defs
import proofs.«123953_j11467562680409_2_alg».proof.Proof.Gen.ReferenceIdeal
import proofs.«123953_j11467562680409_2_alg».proof.Proof.Gen.Pre_finite_inputs
import proofs.«123953_j11467562680409_2_alg».proof.Proof.Gen.ReferenceIdeal.Run
import proofs.«123953_j11467562680409_2_alg».proof.Proof.Gen.ReferenceIdeal.Read
import proofs.«123953_j11467562680409_2_alg».proof.Proof.Spec
import proofs.«123953_j11467562680409_2_alg».proof.Proof.RefBase
import proofs.«123953_j11467562680409_2_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The cost matrix of the specification on the four matrices of a memory's argument arrays, read as
    16 x 900 x 640. -/
def refSpec (m : (ℓ : Loc nD τ sig) → Buf (Elt Ideal) ℓ) (c : Dev nD) :
    (⟨S16x900x640, .f32⟩ : BufTy).Contents (Elt Ideal) :=
  shapeCast _ (costR (stageX (m ((c.tc : Thread nD τ).loc main_arg0))) (stageP (m ((c.tc : Thread nD τ).loc main_arg1)))
          (stageM (m ((c.tc : Thread nD τ).loc main_arg2)) (m ((c.tc : Thread nD τ).loc main_arg4))) (stageB (m ((c.tc : Thread nD τ).loc main_arg3)))) shapeCasts_S14400x640_S16x900x640

/-- The run's result term is the specification. -/
theorem ref_result (m : (ℓ : Loc nD τ sig) → Buf (Elt Ideal) ℓ) (c : Dev nD) :
    Cert.ReferenceIdeal.Value.res_out0 (F := Ideal) m c = refSpec m c := by
  show Cert.ReferenceIdeal.Value.res_main_v186 (F := Ideal) m c = _
  rw [val_main_v186_eq]
  unfold val_main_v186 refSpec
  rw [ref_stage]

/-- Every weakly fair execution of the reference ends with the specification in its result array and its
    argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v186) = refSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (ref_result m c), (h c).2⟩)
    (Cert.ReferenceIdeal.Value.run (F := Ideal) m ρ)

/-- The reference's frame: the run with the result dropped. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

end Cert.ReferenceIdeal.RefValue

end
-- ==== Proof.SpecLaw.lean ====
/-
  The two spellings of the matching cost agree when the entries of X, P and B are real numbers.

  The reference squares by a power with exponent 2, negates by -x, starts its four-term box sum from zero and
  takes each box area from the corners; the kernel squares by multiplication, negates as 0 - x, adds the four
  absolute differences left to right and takes each area as width times height. Each difference is a law of the
  real numbers that can fail at an infinity (x ^ 2 = x * x needs x ≠ -∞ here, (c + w/2) - (c - w/2) = w needs c
  and w finite), which is why the entries are assumed real.
-/
import Mathlib
import Idealize.ShloMosaic.PureOps.Ideal
import proofs.«123953_j11467562680409_2_alg».proof.Proof.Spec

noncomputable section

namespace Cert.Spec

open Idealize.ShloMosaic Idealize.ShloMosaic.ValueIdx

variable (X : SX.Idx → EReal) (P : SP.Idx → EReal) (M : SM.Idx → EReal) (B : SB.Idx → EReal)

/-! ### The values of the four words the laws read -/

theorem zero_eq : zero = 0 := by
  show Ideal.ofBits .f32 0x00000000#32 = 0
  simp [Ideal.ofBits, Ideal.ieee]

theorem one_eq : one = 1 := by
  show Ideal.ofBits .f32 0x3F800000#32 = 1
  simp [Ideal.ofBits, Ideal.ieee, -EReal.coe_mul]; norm_num

theorem half_eq : half = ((1 / 2 : ℝ) : EReal) := by
  show Ideal.ofBits .f32 0x3F000000#32 = ((1 / 2 : ℝ) : EReal)
  simp [Ideal.ofBits, Ideal.ieee, -EReal.coe_mul]; norm_num

theorem two_eq : two = ((2 : ℝ) : EReal) := by
  show Ideal.ofBits .f32 0x40000000#32 = ((2 : ℝ) : EReal)
  simp [Ideal.ofBits, Ideal.ieee, -EReal.coe_mul]; norm_num

/-! ### The laws, one per sub-expression -/

/-- Negation is subtraction from the zero word, at every extended real. -/
theorem neg_eq_zero_sub (x : EReal) : -x = zero - x := by
  rw [zero_eq, zero_sub]

/-- The power with exponent the word of 2 is the product, at a real number. -/
theorem pow_two_of_real (x : EReal) (hx : ∃ r : ℝ, x = r) : Ideal.pow x two = x * x := by
  obtain ⟨r, rfl⟩ := hx
  rw [two_eq, Ideal.pow_coe_coe, ← EReal.coe_mul]
  congr 1
  rw [Real.rpow_eq_pow, Real.rpow_two, sq]

/-- The sigmoid of a real logit is a real number. -/
theorem prob_real (hX : ∀ i, ∃ x : ℝ, X i = (x : EReal)) (r : Fin 14400) (k : Fin 512) :
    ∃ p : ℝ, prob X r k = p := by
  obtain ⟨x, hx⟩ := hX (ix2 r k)
  exact ⟨_, by rw [prob, hx, Ideal.logistic_coe]⟩

/-- One minus a real number is a real number. -/
theorem one_sub_real {p : EReal} (hp : ∃ r : ℝ, p = r) : ∃ r : ℝ, one - p = r := by
  obtain ⟨r, rfl⟩ := hp
  exact ⟨1 - r, by rw [one_eq, ← EReal.coe_one, ← EReal.coe_sub]⟩

/-- pos - neg of the focal cost, the two spellings, over a real probability. -/
theorem diff_core (p : EReal) (hp : ∃ r : ℝ, p = r) :
    (c25 * Ideal.pow (one - p) two) * (-(Ideal.log (p + eps)))
        - (c75 * Ideal.pow p two) * (-(Ideal.log ((one - p) + eps)))
      = (c25 * ((one - p) * (one - p))) * (zero - Ideal.log (p + eps))
        - (c75 * (p * p)) * (zero - Ideal.log ((one - p) + eps)) := by
  rw [pow_two_of_real p hp, pow_two_of_real (one - p) (one_sub_real hp),
    neg_eq_zero_sub (Ideal.log (p + eps)), neg_eq_zero_sub (Ideal.log ((one - p) + eps))]

theorem diffR_eq_diffK (hX : ∀ i, ∃ x : ℝ, X i = (x : EReal)) (r : Fin 14400) (k : Fin 512) :
    diffR X r k = diffK X r k := by
  unfold diffR diffK
  exact diff_core (prob X r k) (prob_real X hX r k)

theorem classR_eq_classK (hX : ∀ i, ∃ x : ℝ, X i = (x : EReal)) (r : Fin 14400) (g : Fin 640) :
    classR X M r g = classK X M r g := by
  unfold classR classK
  exact Finset.sum_congr rfl fun k _ => by rw [diffR_eq_diffK X hX r k]

/-- A four-term sum started from the zero word is the left-nested sum of the four terms. -/
theorem zero_add_sum_four (f : Fin 4 → EReal) : zero + ∑ a : Fin 4, f a = ((f 0 + f 1) + f 2) + f 3 := by
  rw [zero_eq, zero_add, Fin.sum_univ_four]

theorem bboxR_eq_bboxK (r : Fin 14400) (g : Fin 640) : bboxR P B r g = bboxK P B r g := by
  unfold bboxR bboxK
  exact zero_add_sum_four fun a => absE (P (ix2 r a) - B (ix2 g a))

/-- The far corner less the near corner of a box with real centre and real width is the width. -/
theorem hi_sub_lo (c w : EReal) (hc : ∃ r : ℝ, c = r) (hw : ∃ r : ℝ, w = r) : hi c w - lo c w = w := by
  obtain ⟨c, rfl⟩ := hc
  obtain ⟨w, rfl⟩ := hw
  unfold hi lo
  rw [half_eq, ← EReal.coe_mul, ← EReal.coe_add, ← EReal.coe_sub, ← EReal.coe_sub]
  congr 1
  ring

theorem giouR_eq_giouK (hP : ∀ i, ∃ x : ℝ, P i = (x : EReal)) (hB : ∀ i, ∃ x : ℝ, B i = (x : EReal))
    (r : Fin 14400) (g : Fin 640) : giouR P B r g = giouK P B r g := by
  unfold giouR giouK
  dsimp only
  rw [hi_sub_lo _ _ (hP (ix2 r 0)) (hP (ix2 r 2)), hi_sub_lo _ _ (hP (ix2 r 1)) (hP (ix2 r 3)),
    hi_sub_lo _ _ (hB (ix2 g 0)) (hB (ix2 g 2)), hi_sub_lo _ _ (hB (ix2 g 1)) (hB (ix2 g 3))]

/-- The two spellings of an entry of the cost agree over real X, P and B. -/
theorem costR_eq_costK (hX : ∀ i, ∃ x : ℝ, X i = (x : EReal)) (hP : ∀ i, ∃ x : ℝ, P i = (x : EReal))
    (hB : ∀ i, ∃ x : ℝ, B i = (x : EReal)) (j : SR.Idx) : costR X P M B j = costK X P M B j := by
  unfold costR costK
  rw [bboxR_eq_bboxK P B (j 0) (j 1), classR_eq_classK X M hX (j 0) (j 1),
    giouR_eq_giouK P B hP hB (j 0) (j 1), neg_eq_zero_sub]

end Cert.Spec

end
-- ==== Proof.PreReal.lean ====
/-
  From the precondition to "every entry of the four float arguments is a real number".

  The precondition is the conjunction, over the four float arguments, of "every entry x has |x| < +∞". Read at the
  extended reals, |x| is max x (-x), so |x| < +∞ excludes x = +∞ and x = -∞ (where max x (-x) = +∞) and leaves the
  real numbers.
-/
import Mathlib
import Idealize.ShloMosaic.Lib.ReduceAll
import Idealize.ShloMosaic.Lib.ValueIdx
import Idealize.ShloMosaic.PureOps.Ideal
import proofs.«123953_j11467562680409_2_alg».proof.Pre_finite_inputs

noncomputable section

namespace Cert.PreReal

open Idealize.ShloMosaic Cert.Pre_finite_inputs

/-- The rank-0 shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- One argument's conjunct: the reduction by "and" of the entrywise comparison |x| < +∞ came out true, so every
    entry is a real number. -/
theorem all_real {s : Shape} {axes : List (Fin s.rank)}
    (hb : S_.BroadcastsInDim s (![] : Fin 0 → Fin s.rank)) (hr : s.ReducesTo axes S_) (hS : 0 < S_.numel)
    (x : s.Idx → EReal)
    (e : Host.reduce IntOp.andi
        (cmpf (F := Ideal) (φ := .f32) .olt (Host.absf (F := Ideal) (φ := .f32) x)
          (broadcastInDim s ![] hb (constant (F := Ideal) S_ .f32 0x7F800000#32)))
        (constantI S_ 1 1#1) hr hS ValueIdx.ix0 = 1#1) (i : s.Idx) : ∃ r : ℝ, x i = r :=
  real_of_abs_lt_inf (x i) (Host.reduce_andi_all _ _ hr hS ValueIdx.ix0 e i)

/-- The precondition says every entry of the four float arguments is a real number. -/
theorem real_of_pre [Facts] (x0 : S16x900x512.Idx → EReal) (x1 : S16x900x4.Idx → EReal)
    (x2 : S16x91x512.Idx → EReal) (x3 : S16x40x4.Idx → EReal) (x4 : IVec S16x40 32)
    (h : Cert.Pre_finite_inputs.fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ValueIdx.ix0
  dsimp only [fn, fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨all_real _ _ _ x0 e0, all_real _ _ _ x1 e1, all_real _ _ _ x2 e2, all_real _ _ _ x3 e3⟩

end Cert.PreReal

end
-- ==== Proof.PreShapes.lean ====
/-
  Being a real number entry by entry survives a shape cast: a cast reads every entry of the result from an entry of
  the operand (the one at the same row-major position).
-/
import Mathlib
import Idealize.ShloMosaic.PureOps.ShapeOps

noncomputable section

namespace Cert.PreReal

open Idealize.ShloMosaic

theorem real_shapeCast {s t : Shape} (x : s.Idx → EReal) (h : s.ShapeCasts t) (hx : ∀ i, ∃ r : ℝ, x i = r) :
    ∀ j, ∃ r : ℝ, shapeCast t x h j = r :=
  fun j => hx (Shape.reshapeEquiv h j)

end Cert.PreReal

end
-- ==== Proof.Bridge.lean ====
/-
  The two spellings of the cost agree on the matrices the programs build from finite inputs.

  The four matrices are shape casts of the argument arrays (and gathered rows of one of them); a shape cast
  reads every entry from an entry of its operand, so under the precondition — every float input a real
  number — the logits, the predicted boxes and the target boxes are real entry by entry, which is what the
  law between the two spellings needs (squares as powers, corner differences as widths).
-/
import proofs.«123953_j11467562680409_2_alg».proof.Proof.Spec
import proofs.«123953_j11467562680409_2_alg».proof.Proof.SpecLaw
import proofs.«123953_j11467562680409_2_alg».proof.Proof.PreReal
import proofs.«123953_j11467562680409_2_alg».proof.Proof.PreShapes
import proofs.«123953_j11467562680409_2_alg».proof.Proof.RefBase
import proofs.«123953_j11467562680409_2_alg».proof.Proof.Gen.Pre_finite_inputs

noncomputable section

namespace Cert.Bridge

open Idealize.ShloMosaic Cert.Spec Cert.ReferenceIdeal.RefValue

theorem costR_eq_costK_of_pre (x0 : Cert.Pre_finite_inputs.S16x900x512.Idx → EReal) (x1 : Cert.Pre_finite_inputs.S16x900x4.Idx → EReal)
    (x2 : Cert.Pre_finite_inputs.S16x91x512.Idx → EReal) (x3 : Cert.Pre_finite_inputs.S16x40x4.Idx → EReal)
    (x4 : IVec Cert.Pre_finite_inputs.S16x40 32)
    (h : Cert.Pre_finite_inputs.fn (F := Ideal) x0 x1 x2 x3 x4 = fun _ => 1#1) :
    costR (stageX x0) (stageP x1) (stageM x2 x4) (stageB x3) = costK (stageX x0) (stageP x1) (stageM x2 x4) (stageB x3) := by
  obtain ⟨h0, h1, _, h3⟩ := Cert.PreReal.real_of_pre x0 x1 x2 x3 x4 h
  funext j
  exact costR_eq_costK _ _ _ _ (Cert.PreReal.real_shapeCast x0 _ h0) (Cert.PreReal.real_shapeCast x1 _ h1)
    (Cert.PreReal.real_shapeCast x3 _ h3) j

end Cert.Bridge

end
-- ==== Proof.lean ====
/-
  The matching cost of 14400 queries against 640 targets — five times the L1 distance of the boxes, plus twice a
  focal class cost, plus twice the negated generalized IoU — computed by a tiled kernel (ten blocks of 1440
  queries; the class cost as one matrix product in bf16 against the normalized label maps; the box terms from a
  small table of target corners and areas prepared on the host) and by an array reference.

  The three programs run to the end and leave their arguments as they found them. At the ideal values the two
  results are equal entry by entry: both are the shape cast to [16, 900, 640] of one 14400 x 640 matrix, the cost
  of the specification (Proof/Spec.lean) on the same four matrices X, P, M, B built from the arguments. The kernel's
  side: each stored block is the cost on the block's rows (Proof/KPayload.lean), the blocks cover the result
  (Proof/KBlocks.lean), the host's arrays are the normalized transpose of M and the table of B (Proof/KHost.lean,
  Proof/KHostArrays.lean), so the result is the kernel's spelling of the cost (Proof/KArr.lean). The reference's
  side: its stages read entry by entry are the reference's spelling (Proof/Ref*.lean). The two spellings differ
  in how a square, a negation, a four-term sum and a box area are written, and agree where the logits and the
  boxes are real numbers (Proof/SpecLaw.lean), which the precondition gives (Proof/PreReal.lean, Proof/Bridge.lean).
-/
import proofs.«123953_j11467562680409_2_alg».proof.Defs
import proofs.«123953_j11467562680409_2_alg».proof.Proof.Gen.Kernel
import proofs.«123953_j11467562680409_2_alg».proof.Proof.Gen.KernelIdeal
import proofs.«123953_j11467562680409_2_alg».proof.Proof.Gen.ReferenceIdeal
import proofs.«123953_j11467562680409_2_alg».proof.Proof.Gen.Pre_finite_inputs
import proofs.«123953_j11467562680409_2_alg».proof.Proof.KernelFrame
import proofs.«123953_j11467562680409_2_alg».proof.Proof.KernelIdealFrame
import proofs.«123953_j11467562680409_2_alg».proof.Proof.KArr
import proofs.«123953_j11467562680409_2_alg».proof.Proof.KBlocks
import proofs.«123953_j11467562680409_2_alg».proof.Proof.KHostArrays
import proofs.«123953_j11467562680409_2_alg».proof.Proof.RefValue
import proofs.«123953_j11467562680409_2_alg».proof.Proof.Bridge
import Idealize.ShloMosaic.Adequacy
import Idealize.ShloMosaic.Init

noncomputable section

namespace Cert.Proof

open Idealize.ShloMosaic Idealize.ShloMosaic.TcCoe Idealize.SL.Sem

/-- The 14400 x 640 cost matrix of the specification on the four matrices built from the kernel's arguments. -/
def costOf (m : (ℓ : Loc Cert.KernelIdeal.nD Cert.KernelIdeal.τ Cert.KernelIdeal.sig) → Buf (Elt Ideal) ℓ) (c : Dev Cert.KernelIdeal.nD) :
    Cert.Spec.SR.Idx → EReal :=
  Cert.Spec.costK
    (Cert.ReferenceIdeal.RefValue.stageX (m ((c.tc : Thread Cert.KernelIdeal.nD Cert.KernelIdeal.τ).loc Cert.KernelIdeal.main_arg0)))
    (Cert.ReferenceIdeal.RefValue.stageP (m ((c.tc : Thread Cert.KernelIdeal.nD Cert.KernelIdeal.τ).loc Cert.KernelIdeal.main_arg1)))
    (Cert.ReferenceIdeal.RefValue.stageM (m ((c.tc : Thread Cert.KernelIdeal.nD Cert.KernelIdeal.τ).loc Cert.KernelIdeal.main_arg2))
      (m ((c.tc : Thread Cert.KernelIdeal.nD Cert.KernelIdeal.τ).loc Cert.KernelIdeal.main_arg4)))
    (Cert.ReferenceIdeal.RefValue.stageB (m ((c.tc : Thread Cert.KernelIdeal.nD Cert.KernelIdeal.τ).loc Cert.KernelIdeal.main_arg3)))

/-- The word-level kernel runs to the end and keeps its arguments. -/
theorem frame_k : Cert.frame_Kernel := fun m ρ _ => Cert.Kernel.Frm.frame m ρ

/-- The idealized kernel runs to the end and keeps its arguments. -/
theorem frame_ki : Cert.frame_KernelIdeal := fun m ρ _ => Cert.KernelIdeal.Frm.frame m ρ

/-- The ideal pass rewrote nothing: the idealized kernel is the kernel's own text read at the ideal values. -/
theorem preserves : Cert.preserves_Kernel_KernelIdeal := trivial

/-- At the ideal values, from memories agreeing on the arguments, both programs end with the shape cast of the
    specification's cost matrix: the kernel's result array is the kernel's spelling of it block by block, the
    reference's result is the reference's spelling, and the two spellings agree on finite inputs. -/
theorem algebraic : Cert.algebraic_KernelIdeal_ReferenceIdeal := by
  intro m ρ m' ρ' hpre hagree
  refine ⟨fun c => shapeCast Cert.KernelIdeal.S16x900x640 (costOf m c) Cert.KernelIdeal.Gen.shapeCasts_S14400x640_S16x900x640, ?_, ?_⟩
  · refine (θ_run Cert.KernelIdeal.defs _ _).mono (fun r h c => ⟨(h c).1.trans ?_, (h c).2⟩)
      (Cert.KernelIdeal.KVal.run_value m ρ)
    refine congrArg (fun v => shapeCast Cert.KernelIdeal.S16x900x640 v Cert.KernelIdeal.Gen.shapeCasts_S14400x640_S16x900x640) ?_
    rw [Cert.KernelIdeal.KVal.final_out m c, Cert.KernelIdeal.KVal.hX m c, Cert.KernelIdeal.KVal.hP m c,
      Cert.KernelIdeal.KVal.hL m c, Cert.KernelIdeal.KVal.hA m c]
    exact Cert.KernelIdeal.KVal.kernelArr_eq _ _ _ _
  · refine (θ_run Cert.ReferenceIdeal.defs _ _).mono (fun r h c => ⟨(h c).1.trans ?_, (h c).2⟩)
      (Cert.ReferenceIdeal.RefValue.ref_run m' ρ')
    unfold Cert.ReferenceIdeal.RefValue.refSpec
    rw [(hagree c).1, (hagree c).2.1, (hagree c).2.2.1, (hagree c).2.2.2.1, (hagree c).2.2.2.2]
    exact congrArg (fun v => shapeCast Cert.KernelIdeal.S16x900x640 v Cert.KernelIdeal.Gen.shapeCasts_S14400x640_S16x900x640)
      (Cert.Bridge.costR_eq_costK_of_pre _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
